-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2000000x3 : Shape := ⟨2, ![2000000, 3]⟩
abbrev S2000000 : Shape := ⟨1, ![2000000]⟩
abbrev S48x48 : Shape := ⟨2, ![48, 48]⟩
abbrev S48x96 : Shape := ⟨2, ![48, 96]⟩
abbrev S48 : Shape := ⟨1, ![48]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S48x48 : S_.BroadcastsInDim S48x48 (![] : Fin 0 → Fin S48x48.rank)
  reducesTo_S48x48_S_d0_1 : S48x48.ReducesTo [0, 1] S_
  bcast_S_S48x96 : S_.BroadcastsInDim S48x96 (![] : Fin 0 → Fin S48x96.rank)
  reducesTo_S48x96_S_d0_1 : S48x96.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg5 : FVec F S48x96 .f32) (main_arg6 : FVec F S48 .f32) (main_arg7 : FVec F S48 .f32) (main_v13 : IVec S_ 1) (main_v16 : IVec S48x48 1) : IVec S_ 1 :=
  let main_c_5 : IVec S_ 1 := constantI S_ 1 1#1
  let main_v17 : IVec S_ 1 := (fun x v => Host.reduce IntOp.andi x v reducesTo_S48x48_S_d0_1 h_S_) main_v16 main_c_5
  let main_v18 : IVec S_ 1 := andi main_v13 main_v17
  let main_v19 : FVec F S48x96 .f32 := Host.absf main_arg5
  let main_cst_6 : FVec F S_ .f32 := constant S_ .f32 0x7F800000#32
  let main_v20 : FVec F S48x96 .f32 := broadcastInDim S48x96 ![] bcast_S_S48x96 main_cst_6
  let main_v21 : IVec S48x96 1 := cmpf .olt main_v19 main_v20
  let main_c_7 : IVec S_ 1 := constantI S_ 1 1#1
  let main_v22 : IVec S_ 1 := (fun x v => Host.reduce IntOp.andi x v reducesTo_S48x96_S_d0_1 h_S_) main_v21 main_c_7
  let main_v23 : IVec S_ 1 := andi main_v18 main_v22
  let main_v24 : FVec F S48 .f32 := Host.absf main_arg6
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48 .f32 := Host.absf main_arg7
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  main_v33

def fn {F : FTy → Type} [FloatOps F] (main_arg0 : FVec F S100000x48 .f32) (main_arg1 : IVec S2000000x3 32) (main_arg2 : FVec F S2000000 .f32) (main_arg3 : FVec F S2000000 .f32) (main_arg4 : FVec F S48x48 .f32) (main_arg5 : FVec F S48x96 .f32) (main_arg6 : FVec F S48 .f32) (main_arg7 : FVec F S48 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000 .f32 := Host.absf main_arg3
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S48x48 .f32 := Host.absf main_arg4
  let main_cst_4 : FVec F S_ .f32 := constant S_ .f32 0x7F800000#32
  let main_v15 : FVec F S48x48 .f32 := broadcastInDim S48x48 ![] bcast_S_S48x48 main_cst_4
  let main_v16 : IVec S48x48 1 := cmpf .olt main_v14 main_v15
  fn_part1 (F := F) main_arg5 main_arg6 main_arg7 main_v13 main_v16
-- ==== Kernel.lean ====
abbrev S100000x48 : Shape := ⟨2, ![100000, 48]⟩
abbrev S2000000x3 : Shape := ⟨2, ![2000000, 3]⟩
abbrev S2000000 : Shape := ⟨1, ![2000000]⟩
abbrev S48x48 : Shape := ⟨2, ![48, 48]⟩
abbrev S48x96 : Shape := ⟨2, ![48, 96]⟩
abbrev S48 : Shape := ⟨1, ![48]⟩
abbrev S2000000x1 : Shape := ⟨2, ![2000000, 1]⟩
abbrev S_ : Shape := ⟨0, ![]⟩
abbrev S2000000x48 : Shape := ⟨2, ![2000000, 48]⟩
abbrev S4000x48 : Shape := ⟨2, ![4000, 48]⟩
abbrev S4000x1 : Shape := ⟨2, ![4000, 1]⟩
abbrev S100000 : Shape := ⟨1, ![100000]⟩
abbrev S100000x1 : Shape := ⟨2, ![100000, 1]⟩
abbrev S1x48 : Shape := ⟨2, ![1, 48]⟩
abbrev S5000x48 : Shape := ⟨2, ![5000, 48]⟩
abbrev S5000x1 : Shape := ⟨2, ![5000, 1]⟩
abbrev S5000 : Shape := ⟨1, ![5000]⟩

abbrev nBuf : Space → Nat
  | .hbm => 60
  | .vmem => 25
  | .smem => 0
  | _ => 0

abbrev bufTy : (tb : Table) → Fin (tcTables nBuf tb) → BufTy
  | .hbm, ⟨0, _⟩ => ⟨S100000x48, .f32⟩
  | .hbm, ⟨1, _⟩ => ⟨S2000000x3, .i32⟩
  | .hbm, ⟨2, _⟩ => ⟨S2000000, .f32⟩
  | .hbm, ⟨3, _⟩ => ⟨S2000000, .f32⟩
  | .hbm, ⟨4, _⟩ => ⟨S48x48, .f32⟩
  | .hbm, ⟨5, _⟩ => ⟨S48x96, .f32⟩
  | .hbm, ⟨6, _⟩ => ⟨S48, .f32⟩
  | .hbm, ⟨7, _⟩ => ⟨S48, .f32⟩
  | .hbm, ⟨8, _⟩ => ⟨S2000000x1, .i32⟩
  | .hbm, ⟨9, _⟩ => ⟨S2000000, .i32⟩
  | .hbm, ⟨10, _⟩ => ⟨S2000000x1, .i32⟩
  | .hbm, ⟨11, _⟩ => ⟨S2000000, .i32⟩
  | .hbm, ⟨12, _⟩ => ⟨S2000000x1, .i32⟩
  | .hbm, ⟨13, _⟩ => ⟨S2000000, .i32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x48, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x48, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S2000000x48, .f32⟩
  | .hbm, ⟨41, _⟩ => ⟨S2000000x1, .f32⟩
  | .hbm, ⟨42, _⟩ => ⟨S2000000x1, .f32⟩
  | .hbm, ⟨43, _⟩ => ⟨S48x48, .f32⟩
  | .hbm, ⟨44, _⟩ => ⟨S48x48, .f32⟩
  | .hbm, ⟨45, _⟩ => ⟨S2000000x48, .f32⟩
  | .hbm, ⟨46, _⟩ => ⟨S_, .f32⟩
  | .hbm, ⟨47, _⟩ => ⟨S2000000, .f32⟩
  | .hbm, ⟨48, _⟩ => ⟨S_, .f32⟩
  | .hbm, ⟨49, _⟩ => ⟨S100000, .f32⟩
  | .hbm, ⟨50, _⟩ => ⟨S2000000x1, .i32⟩
  | .hbm, ⟨51, _⟩ => ⟨S100000, .f32⟩
  | .hbm, ⟨52, _⟩ => ⟨S_, .f32⟩
  | .hbm, ⟨53, _⟩ => ⟨S100000x48, .f32⟩
  | .hbm, ⟨54, _⟩ => ⟨S2000000x1, .i32⟩
  | .hbm, ⟨55, _⟩ => ⟨S100000x48, .f32⟩
  | .hbm, ⟨56, _⟩ => ⟨S100000x1, .f32⟩
  | .hbm, ⟨57, _⟩ => ⟨S1x48, .f32⟩
  | .hbm, ⟨58, _⟩ => ⟨S1x48, .f32⟩
  | .hbm, ⟨59, _⟩ => ⟨S100000x48, .f32⟩
  | .local _ .vmem, ⟨0, _⟩ => ⟨S4000x48, .f32⟩
  | .local _ .vmem, ⟨1, _⟩ => ⟨S4000x48, .f32⟩
  | .local _ .vmem, ⟨2, _⟩ => ⟨S4000x48, .f32⟩
  | .local _ .vmem, ⟨3, _⟩ => ⟨S4000x48, .f32⟩
  | .local _ .vmem, ⟨4, _⟩ => ⟨S4000x48, .f32⟩
  | .local _ .vmem, ⟨5, _⟩ => ⟨S4000x48, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S48x48, .f32⟩
  | .local _ .vmem, ⟨11, _⟩ => ⟨S48x48, .f32⟩
  | .local _ .vmem, ⟨12, _⟩ => ⟨S48x48, .f32⟩
  | .local _ .vmem, ⟨13, _⟩ => ⟨S4000x48, .f32⟩
  | .local _ .vmem, ⟨14, _⟩ => ⟨S4000x48, .f32⟩
  | .local _ .vmem, ⟨15, _⟩ => ⟨S5000x48, .f32⟩
  | .local _ .vmem, ⟨16, _⟩ => ⟨S5000x48, .f32⟩
  | .local _ .vmem, ⟨17, _⟩ => ⟨S5000x48, .f32⟩
  | .local _ .vmem, ⟨18, _⟩ => ⟨S5000x48, .f32⟩
  | .local _ .vmem, ⟨19, _⟩ => ⟨S5000x1, .f32⟩
  | .local _ .vmem, ⟨20, _⟩ => ⟨S5000x1, .f32⟩
  | .local _ .vmem, ⟨21, _⟩ => ⟨S1x48, .f32⟩
  | .local _ .vmem, ⟨22, _⟩ => ⟨S1x48, .f32⟩
  | .local _ .vmem, ⟨23, _⟩ => ⟨S5000x48, .f32⟩
  | .local _ .vmem, ⟨24, _⟩ => ⟨S5000x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S48x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  slices_S48x96_S48x48_0_0 : S48x96.Slices ![0, 0] S48x48
  slices_S48x96_S48x48_0_48 : S48x96.Slices ![0, 48] S48x48
  inb_S4000x48_S4000x48_0_0 : ∀ a, (![0, 0] : Fin 2 → Nat) a + S4000x48.size a ≤ S4000x48.size a
  h_S4000x48 : 0 < S4000x48.numel
  shapeCasts_S4000x48_S4000x48 : S4000x48.ShapeCasts S4000x48
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  transposes_S48x48_p1_0_S48x48 : S48x48.Transposes [1, 0] S48x48
  shapeCasts_S48x48_S48x48 : S48x48.ShapeCasts S48x48
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x48 : S4000x1.Broadcasts S4000x48
  bcast_S_S100000 : S_.BroadcastsInDim S100000 (![] : Fin 0 → Fin S100000.rank)
  bcast_S_S100000x48 : S_.BroadcastsInDim S100000x48 (![] : Fin 0 → Fin S100000x48.rank)
  shapeCasts_S100000_S100000x1 : S100000.ShapeCasts S100000x1
  shapeCasts_S48_S1x48 : S48.ShapeCasts S1x48
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  broadcasts_S5000x1_S5000x48 : S5000x1.Broadcasts S5000x48
  reduces_S5000x48_S5000 : S5000x48.Reduces [1] S5000
  shapeCasts_S5000_S5000x1 : S5000.ShapeCasts S5000x1
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  gather_S100000x48_S2000000x1_S2000000x48_1_0_n_n_0_1_148_wf : GatherDims.WF S100000x48 S2000000x1 S2000000x48 [1] [0] [] [0] [] 1 ![1, 48]
  dot_S4000x48_S48x48_S4000x48_1_0_0_1_n_n_wf : DotDims.WF S4000x48 S48x48 S4000x48 [1] [0] [0] [1] [] []
  scatter_S100000_S2000000x1_S2000000_n_0_0_1_wf : ScatterDims.WF S100000 S2000000x1 S2000000 [] [0] [0] 1
  scatter_S100000x48_S2000000x1_S2000000x48_1_0_0_1_wf : ScatterDims.WF S100000x48 S2000000x1 S2000000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x48.size a ≤ S2000000x48.size a
  hwx0_0 : ∀ i : grid0.Coords, EltTy.bits .f32 = 32 ∨ (Rect.block (s := S2000000x48) S4000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x48.size a ≤ S2000000x48.size a
  hwx0_1 : ∀ i : grid0.Coords, EltTy.bits .f32 = 32 ∨ (Rect.block (s := S2000000x48) S4000x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x48.size a ≤ S2000000x48.size a
  hwx0_2 : ∀ i : grid0.Coords, EltTy.bits .f32 = 32 ∨ (Rect.block (s := S2000000x48) S4000x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S2000000x1.size a
  hwx0_3 : ∀ i : grid0.Coords, EltTy.bits .f32 = 32 ∨ (Rect.block (s := S2000000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S2000000x1.size a
  hwx0_4 : ∀ i : grid0.Coords, EltTy.bits .f32 = 32 ∨ (Rect.block (s := S2000000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x48.size a ≤ S48x48.size a
  hwx0_5 : ∀ i : grid0.Coords, EltTy.bits .f32 = 32 ∨ (Rect.block (s := S48x48) S48x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x48.size a ≤ S48x48.size a
  hwx0_6 : ∀ i : grid0.Coords, EltTy.bits .f32 = 32 ∨ (Rect.block (s := S48x48) S48x48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48x48.size a ≤ S48x48.size a
  hwx0_7 : ∀ i : grid0.Coords, EltTy.bits .f32 = 32 ∨ (Rect.block (s := S48x48) S48x48.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x48.size a ≤ S2000000x48.size a
  hwx0_8 : ∀ i : grid0.Coords, EltTy.bits .f32 = 32 ∨ (Rect.block (s := S2000000x48) S4000x48.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S100000x48.size a
  hwx1_0 : ∀ i : grid1.Coords, EltTy.bits .f32 = 32 ∨ (Rect.block (s := S100000x48) S5000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x48.size a ≤ S100000x48.size a
  hwx1_1 : ∀ i : grid1.Coords, EltTy.bits .f32 = 32 ∨ (Rect.block (s := S100000x48) S5000x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x48.size a ≤ S1x48.size a
  hwx1_3 : ∀ i : grid1.Coords, EltTy.bits .f32 = 32 ∨ (Rect.block (s := S1x48) S1x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x48.size a ≤ S1x48.size a
  hwx1_4 : ∀ i : grid1.Coords, EltTy.bits .f32 = 32 ∨ (Rect.block (s := S1x48) S1x48.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x48.size a ≤ S100000x48.size a
  hwx1_5 : ∀ i : grid1.Coords, EltTy.bits .f32 = 32 ∨ (Rect.block (s := S100000x48) S5000x48.size (cc1_transform_5 i) (hinb1_5 i)).WholeWords (EltTy.packing .f32)

variable [Facts₀]

def gather_S100000x48_S2000000x1_S2000000x48_1_0_n_n_0_1_148 : GatherDims S100000x48 S2000000x1 S2000000x48 where
  offsetDims := [1]
  collapsedSliceDims := [0]
  operandBatchingDims := []
  startIndicesBatchingDims := []
  startIndexMap := [0]
  indexVectorDim := 1
  sliceSizes := ![1, 48]
  wf := gather_S100000x48_S2000000x1_S2000000x48_1_0_n_n_0_1_148_wf
def dot_S4000x48_S48x48_S4000x48_1_0_0_1_n_n : DotDims S4000x48 S48x48 S4000x48 where
  lhsContracting := [1]
  rhsContracting := [0]
  lhsNonContracting := [0]
  rhsNonContracting := [1]
  lhsBatch := []
  rhsBatch := []
  wf := dot_S4000x48_S48x48_S4000x48_1_0_0_1_n_n_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S100000x48_S2000000x1_S2000000x48_1_0_0_1 : ScatterDims S100000x48 S2000000x1 S2000000x48 where
  updateWindowDims := [1]
  insertedWindowDims := [0]
  scatterDimsToOperandDims := [0]
  indexVectorDim := 1
  wf := scatter_S100000x48_S2000000x1_S2000000x48_1_0_0_1_wf

abbrev win0_0 : Pipeline.Window sig grid0 :=
  Pipeline.Window.ofSpec (Memref.whole main_v12) S4000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4000x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S48x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S48x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S48x48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S4000x48.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x48.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x48 : Shape := ⟨2, ![100000, 48]⟩
abbrev S2000000x3 : Shape := ⟨2, ![2000000, 3]⟩
abbrev S2000000 : Shape := ⟨1, ![2000000]⟩
abbrev S48x48 : Shape := ⟨2, ![48, 48]⟩
abbrev S48x96 : Shape := ⟨2, ![48, 96]⟩
abbrev S48 : Shape := ⟨1, ![48]⟩
abbrev S2000000x1 : Shape := ⟨2, ![2000000, 1]⟩
abbrev S_ : Shape := ⟨0, ![]⟩
abbrev S2000000x48 : Shape := ⟨2, ![2000000, 48]⟩
abbrev S2000000x96 : Shape := ⟨2, ![2000000, 96]⟩
abbrev S100000 : Shape := ⟨1, ![100000]⟩
abbrev S100000x1 : Shape := ⟨2, ![100000, 1]⟩
abbrev S1x48 : Shape := ⟨2, ![1, 48]⟩

abbrev nBuf : Space → Nat
  | .hbm => 115
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2000000x3, .i32⟩
  | .hbm, ⟨2, _⟩ => ⟨S2000000, .f32⟩
  | .hbm, ⟨3, _⟩ => ⟨S2000000, .f32⟩
  | .hbm, ⟨4, _⟩ => ⟨S48x48, .f32⟩
  | .hbm, ⟨5, _⟩ => ⟨S48x96, .f32⟩
  | .hbm, ⟨6, _⟩ => ⟨S48, .f32⟩
  | .hbm, ⟨7, _⟩ => ⟨S48, .f32⟩
  | .hbm, ⟨8, _⟩ => ⟨S2000000x1, .i32⟩
  | .hbm, ⟨9, _⟩ => ⟨S2000000, .i32⟩
  | .hbm, ⟨10, _⟩ => ⟨S2000000x1, .i32⟩
  | .hbm, ⟨11, _⟩ => ⟨S2000000, .i32⟩
  | .hbm, ⟨12, _⟩ => ⟨S2000000x1, .i32⟩
  | .hbm, ⟨13, _⟩ => ⟨S2000000, .i32⟩
  | .hbm, ⟨14, _⟩ => ⟨S2000000, .f32⟩
  | .hbm, ⟨15, _⟩ => ⟨S2000000, .f32⟩
  | .hbm, ⟨16, _⟩ => ⟨S2000000, .f32⟩
  | .hbm, ⟨17, _⟩ => ⟨S_, .f32⟩
  | .hbm, ⟨18, _⟩ => ⟨S2000000, .f32⟩
  | .hbm, ⟨19, _⟩ => ⟨S2000000, .f32⟩
  | .hbm, ⟨20, _⟩ => ⟨S2000000, .f32⟩
  | .hbm, ⟨21, _⟩ => ⟨S_, .f32⟩
  | .hbm, ⟨22, _⟩ => ⟨S2000000, .f32⟩
  | .hbm, ⟨23, _⟩ => ⟨S2000000, .f32⟩
  | .hbm, ⟨24, _⟩ => ⟨S_, .f32⟩
  | .hbm, ⟨25, _⟩ => ⟨S2000000, .f32⟩
  | .hbm, ⟨26, _⟩ => ⟨S2000000, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x48, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000x48, .f32⟩
  | .hbm, ⟨45, _⟩ => ⟨S2000000x48, .f32⟩
  | .hbm, ⟨46, _⟩ => ⟨S2000000x48, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x48, .f32⟩
  | .hbm, ⟨56, _⟩ => ⟨S2000000x96, .f32⟩
  | .hbm, ⟨57, _⟩ => ⟨S2000000x48, .f32⟩
  | .hbm, ⟨58, _⟩ => ⟨S_, .f32⟩
  | .hbm, ⟨59, _⟩ => ⟨S2000000x48, .f32⟩
  | .hbm, ⟨60, _⟩ => ⟨S2000000x48, .i1⟩
  | .hbm, ⟨61, _⟩ => ⟨S_, .f32⟩
  | .hbm, ⟨62, _⟩ => ⟨S2000000x48, .f32⟩
  | .hbm, ⟨63, _⟩ => ⟨S2000000x48, .f32⟩
  | .hbm, ⟨64, _⟩ => ⟨S2000000x48, .f32⟩
  | .hbm, ⟨65, _⟩ => ⟨S2000000x1, .f32⟩
  | .hbm, ⟨66, _⟩ => ⟨S2000000x48, .f32⟩
  | .hbm, ⟨67, _⟩ => ⟨S2000000x48, .f32⟩
  | .hbm, ⟨68, _⟩ => ⟨S_, .f32⟩
  | .hbm, ⟨69, _⟩ => ⟨S2000000, .f32⟩
  | .hbm, ⟨70, _⟩ => ⟨S_, .f32⟩
  | .hbm, ⟨71, _⟩ => ⟨S100000, .f32⟩
  | .hbm, ⟨72, _⟩ => ⟨S2000000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .f32⟩
  | .hbm, ⟨78, _⟩ => ⟨S100000x48, .f32⟩
  | .hbm, ⟨79, _⟩ => ⟨S2000000x1, .i32⟩
  | .hbm, ⟨80, _⟩ => ⟨S100000x48, .f32⟩
  | .hbm, ⟨81, _⟩ => ⟨S100000, .f32⟩
  | .hbm, ⟨82, _⟩ => ⟨S100000x1, .f32⟩
  | .hbm, ⟨83, _⟩ => ⟨S100000x48, .f32⟩
  | .hbm, ⟨84, _⟩ => ⟨S100000x48, .f32⟩
  | .hbm, ⟨85, _⟩ => ⟨S100000x48, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S_, .f32⟩
  | .hbm, ⟨90, _⟩ => ⟨S100000x1, .f32⟩
  | .hbm, ⟨91, _⟩ => ⟨S100000x1, .f32⟩
  | .hbm, ⟨92, _⟩ => ⟨S100000x48, .f32⟩
  | .hbm, ⟨93, _⟩ => ⟨S100000x48, .f32⟩
  | .hbm, ⟨94, _⟩ => ⟨S100000x48, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | .hbm, ⟨101, _⟩ => ⟨S100000x48, .f32⟩
  | .hbm, ⟨102, _⟩ => ⟨S100000x48, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x1, .f32⟩
  | .hbm, ⟨107, _⟩ => ⟨S100000x48, .f32⟩
  | .hbm, ⟨108, _⟩ => ⟨S100000x48, .f32⟩
  | .hbm, ⟨109, _⟩ => ⟨S1x48, .f32⟩
  | .hbm, ⟨110, _⟩ => ⟨S100000x48, .f32⟩
  | .hbm, ⟨111, _⟩ => ⟨S100000x48, .f32⟩
  | .hbm, ⟨112, _⟩ => ⟨S1x48, .f32⟩
  | .hbm, ⟨113, _⟩ => ⟨S100000x48, .f32⟩
  | .hbm, ⟨114, _⟩ => ⟨S100000x48, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x48_S2000000x48_S2000000x96_d1 : Shape.Concatenates [S2000000x48, S2000000x48] S2000000x96 1
  bcast_S_S2000000x48 : S_.BroadcastsInDim S2000000x48 (![] : Fin 0 → Fin S2000000x48.rank)
  bcast_S2000000x1_S2000000x48_0_1 : S2000000x1.BroadcastsInDim S2000000x48 (![0, 1] : Fin 2 → Fin S2000000x48.rank)
  bcast_S_S100000 : S_.BroadcastsInDim S100000 (![] : Fin 0 → Fin S100000.rank)
  bcast_S_S100000x48 : S_.BroadcastsInDim S100000x48 (![] : Fin 0 → Fin S100000x48.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  reducesTo_S100000x48_S100000_d1 : S100000x48.ReducesTo [1] S100000
  h_S_ : 0 < S_.numel
  bcast_S_S100000x1 : S_.BroadcastsInDim S100000x1 (![] : Fin 0 → Fin S100000x1.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  gather_S100000x48_S2000000x1_S2000000x48_1_0_n_n_0_1_148_wf : GatherDims.WF S100000x48 S2000000x1 S2000000x48 [1] [0] [] [0] [] 1 ![1, 48]
  dot_S2000000x48_S48x48_S2000000x48_1_1_0_0_n_n_wf : DotDims.WF S2000000x48 S48x48 S2000000x48 [1] [1] [0] [0] [] []
  dot_S2000000x96_S48x96_S2000000x48_1_1_0_0_n_n_wf : DotDims.WF S2000000x96 S48x96 S2000000x48 [1] [1] [0] [0] [] []
  scatter_S100000_S2000000x1_S2000000_n_0_0_1_wf : ScatterDims.WF S100000 S2000000x1 S2000000 [] [0] [0] 1
  scatter_S100000x48_S2000000x1_S2000000x48_1_0_0_1_wf : ScatterDims.WF S100000x48 S2000000x1 S2000000x48 [1] [0] [0] 1

variable [Facts₀]

def gather_S100000x48_S2000000x1_S2000000x48_1_0_n_n_0_1_148 : GatherDims S100000x48 S2000000x1 S2000000x48 where
  offsetDims := [1]
  collapsedSliceDims := [0]
  operandBatchingDims := []
  startIndicesBatchingDims := []
  startIndexMap := [0]
  indexVectorDim := 1
  sliceSizes := ![1, 48]
  wf := gather_S100000x48_S2000000x1_S2000000x48_1_0_n_n_0_1_148_wf
def dot_S2000000x48_S48x48_S2000000x48_1_1_0_0_n_n : DotDims S2000000x48 S48x48 S2000000x48 where
  lhsContracting := [1]
  rhsContracting := [1]
  lhsNonContracting := [0]
  rhsNonContracting := [0]
  lhsBatch := []
  rhsBatch := []
  wf := dot_S2000000x48_S48x48_S2000000x48_1_1_0_0_n_n_wf
def dot_S2000000x96_S48x96_S2000000x48_1_1_0_0_n_n : DotDims S2000000x96 S48x96 S2000000x48 where
  lhsContracting := [1]
  rhsContracting := [1]
  lhsNonContracting := [0]
  rhsNonContracting := [0]
  lhsBatch := []
  rhsBatch := []
  wf := dot_S2000000x96_S48x96_S2000000x48_1_1_0_0_n_n_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S100000x48_S2000000x1_S2000000x48_1_0_0_1 : ScatterDims S100000x48 S2000000x1 S2000000x48 where
  updateWindowDims := [1]
  insertedWindowDims := [0]
  scatterDimsToOperandDims := [0]
  indexVectorDim := 1
  wf := scatter_S100000x48_S2000000x1_S2000000x48_1_0_0_1_wf

class Facts : Prop extends Facts₀ where

variable [Facts]
-- ==== Proof.KernelRun.lean ====
/-
  The idealized kernel's run, with its result read. @main is four segments: host operations, the per-triple
  pallas_call, host operations (the two scatter-adds), the layer-norm pallas_call. The buffers' contents at each
  segment boundary are a fold from the launch memory; at the last boundary the result buffer holds what the second
  call's write-backs leave. Every weakly fair execution terminates, nothing faults, the result buffer ends at that
  last boundary's contents and the argument arrays end as launched.
-/
import proofs.«159755_j66537633349676_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments, the final state read at every unscoped buffer: the result buffer at the last
    boundary's contents, each argument array walked back through the fold to the launch memory. -/
theorem run : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.HostGlue.lean ====
/-
  What the two pallas_calls find in their arrays, and what the host operations between them compute, named by the
  reference's own stages. Both programs gather the same rows of h by the same index columns (a negative index
  wrapped by adding 100000), reshape the distances and split Wu the same way, and scatter-add by the same centre
  column: each such array of the kernel's @main is, as a function of the launch arguments, the same term as the
  stage of the reference that computes it. The gathers and scatters are never opened.
-/
import proofs.«159755_j66537633349676_1_alg».proof.Proof.Gen.KernelIdeal.Frame
import proofs.«159755_j66537633349676_1_alg».proof.Proof.Gen.ReferenceIdeal.Read
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Before the first call -/

/-- The centre column of the index table, flat. -/
theorem w1_v1 : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results <;> rfl

/-- The rows of h gathered at the first neighbour. -/
theorem w1_v12 : W1 m ρ c (Proc.devRef .tc main_v12)
    = Cert.ReferenceIdeal.Read.val_main_v22 (F := Ideal) (m ((c : Thread nD τ).loc main_arg0)) (m ((c : Thread nD τ).loc main_arg1)) := by
  show StableHlo.after hostOps0 (W0 m ρ c) (Proc.devRef .tc main_v12) = _
  after_results <;> rfl

set_option maxHeartbeats 4000000 in
/-- The rows of h gathered at the second neighbour. -/
theorem w1_v19 : W1 m ρ c (Proc.devRef .tc main_v19)
    = Cert.ReferenceIdeal.Read.val_main_v29 (F := Ideal) (m ((c : Thread nD τ).loc main_arg0)) (m ((c : Thread nD τ).loc main_arg1)) := by
  show StableHlo.after hostOps0 (W0 m ρ c) (Proc.devRef .tc main_v19) = _
  after_results_simp <;> rfl

set_option maxHeartbeats 4000000 in
/-- The rows of h gathered at the centre. -/
theorem w1_v26 : W1 m ρ c (Proc.devRef .tc main_v26)
    = Cert.ReferenceIdeal.Read.val_main_v38 (F := Ideal) (m ((c : Thread nD τ).loc main_arg0)) (m ((c : Thread nD τ).loc main_arg1)) := by
  show StableHlo.after hostOps0 (W0 m ρ c) (Proc.devRef .tc main_v26) = _
  after_results_simp <;> rfl

/-- The first distances as a column. -/
theorem w1_v27 : W1 m ρ c (Proc.devRef .tc main_v27)
    = shapeCast S2000000x1 (m ((c : Thread nD τ).loc main_arg2)) shapeCasts_S2000000_S2000000x1 := by
  show StableHlo.after hostOps0 (W0 m ρ c) (Proc.devRef .tc main_v27) = _
  after_results <;> rfl

/-- The second distances as a column. -/
theorem w1_v28 : W1 m ρ c (Proc.devRef .tc main_v28)
    = shapeCast S2000000x1 (m ((c : Thread nD τ).loc main_arg3)) shapeCasts_S2000000_S2000000x1 := by
  show StableHlo.after hostOps0 (W0 m ρ c) (Proc.devRef .tc main_v28) = _
  after_results <;> rfl

/-- W3 reaches the call as launched. -/
theorem w1_arg4 : W1 m ρ c (Proc.devRef .tc main_arg4) = m ((c : Thread nD τ).loc main_arg4) := by
  show StableHlo.after hostOps0 (W0 m ρ c) (Proc.devRef .tc main_arg4) = _
  after_results <;> rfl

/-- The first 48 columns of Wu. -/
theorem w1_v29 : W1 m ρ c (Proc.devRef .tc main_v29)
    = extractStridedSlice S48x48 ![0, 0] (m ((c : Thread nD τ).loc main_arg5)) slices_S48x96_S48x48_0_0 := by
  show StableHlo.after hostOps0 (W0 m ρ c) (Proc.devRef .tc main_v29) = _
  after_results <;> rfl

/-- The last 48 columns of Wu. -/
theorem w1_v30 : W1 m ρ c (Proc.devRef .tc main_v30)
    = extractStridedSlice S48x48 ![0, 48] (m ((c : Thread nD τ).loc main_arg5)) slices_S48x96_S48x48_0_48 := by
  show StableHlo.after hostOps0 (W0 m ρ c) (Proc.devRef .tc main_v30) = _
  after_results <;> rfl

/-- h, gamma and beta are as launched before the first call. -/
theorem w1_arg0 : W1 m ρ c (Proc.devRef .tc main_arg0) = m ((c : Thread nD τ).loc main_arg0) := by
  show StableHlo.after hostOps0 (W0 m ρ c) (Proc.devRef .tc main_arg0) = _
  after_results <;> rfl
theorem w1_arg6 : W1 m ρ c (Proc.devRef .tc main_arg6) = m ((c : Thread nD τ).loc main_arg6) := by
  show StableHlo.after hostOps0 (W0 m ρ c) (Proc.devRef .tc main_arg6) = _
  after_results <;> rfl
theorem w1_arg7 : W1 m ρ c (Proc.devRef .tc main_arg7) = m ((c : Thread nD τ).loc main_arg7) := by
  show StableHlo.after hostOps0 (W0 m ρ c) (Proc.devRef .tc main_arg7) = _
  after_results <;> rfl

/-! ## Between the calls: the first call writes only its own arrays -/

theorem w2_v1 : W2 m ρ c (Proc.devRef .tc main_v1)
    = Cert.ReferenceIdeal.Read.val_main_v1 (F := Ideal) (m ((c : Thread nD τ).loc main_arg1)) :=
  (W2_of_ne m ρ c main_v1 (by decide)).trans (w1_v1 m ρ c)
theorem w2_arg0 : W2 m ρ c (Proc.devRef .tc main_arg0) = m ((c : Thread nD τ).loc main_arg0) :=
  (W2_of_ne m ρ c main_arg0 (by decide)).trans (w1_arg0 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)

/-! ## Before the second call -/

/-- h reaches the second call as it left the first. -/
theorem w3_arg0 : W3 m ρ c (Proc.devRef .tc main_arg0) = W2 m ρ c (Proc.devRef .tc main_arg0) := by
  show StableHlo.after hostOps1 (W2 m ρ c) (Proc.devRef .tc main_arg0) = _
  after_results

/-- The aggregated updates: the first call's result scatter-added by the centre column into zeros. -/
theorem w3_v38 : W3 m ρ c (Proc.devRef .tc main_v38)
    = Host.scatterAdd scatter_S100000x48_S2000000x1_S2000000x48_1_0_0_1
        (broadcastInDim S100000x48 ![] bcast_S_S100000x48 (constant (F := Ideal) S_ .f32 0x00000000#32))
        (broadcastInDim S2000000x1 ![0] bcast_S2000000_S2000000x1_0 (W2 m ρ c (Proc.devRef .tc main_v1)))
        (W2 m ρ c (Proc.devRef .tc main_v31)) := by
  show StableHlo.after hostOps1 (W2 m ρ c) (Proc.devRef .tc main_v38) = _
  after_results <;> rfl

/-- The counts as a column: ones scatter-added by the centre column into zeros, reshaped. -/
theorem w3_v39 : W3 m ρ c (Proc.devRef .tc main_v39)
    = shapeCast S100000x1 (Host.scatterAdd scatter_S100000_S2000000x1_S2000000_n_0_0_1
        (broadcastInDim S100000 ![] bcast_S_S100000 (constant (F := Ideal) S_ .f32 0x00000000#32))
        (broadcastInDim S2000000x1 ![0] bcast_S2000000_S2000000x1_0 (W2 m ρ c (Proc.devRef .tc main_v1)))
        (broadcastInDim S2000000 ![] bcast_S_S2000000 (constant (F := Ideal) S_ .f32 0x3F800000#32))) shapeCasts_S100000_S100000x1 := by
  show StableHlo.after hostOps1 (W2 m ρ c) (Proc.devRef .tc main_v39) = _
  after_results <;> rfl

/-- gamma as one row. -/
theorem w3_v40 : W3 m ρ c (Proc.devRef .tc main_v40)
    = shapeCast S1x48 (W2 m ρ c (Proc.devRef .tc main_arg6)) shapeCasts_S48_S1x48 := by
  show StableHlo.after hostOps1 (W2 m ρ c) (Proc.devRef .tc main_v40) = _
  after_results <;> rfl

/-- beta as one row. -/
theorem w3_v41 : W3 m ρ c (Proc.devRef .tc main_v41)
    = shapeCast S1x48 (W2 m ρ c (Proc.devRef .tc main_arg7)) shapeCasts_S48_S1x48 := by
  show StableHlo.after hostOps1 (W2 m ρ c) (Proc.devRef .tc main_v41) = _
  after_results <;> rfl

end Cert.KernelIdeal.Glue

end
-- ==== Proof.LibInvRoot.lean ====
/-
  Multiplying by an inverse square root and dividing by a square root, over the extended reals.

  A kernel that scales by x^(-1/2) meets a reference that divides by √x. For a positive real x the root is a nonzero
  real and its reciprocal is the inverse root; at x = +∞ the inverse root is 0 and the quotient by √(+∞) = +∞ is the
  product with (+∞)⁻¹ = 0. So for every x > 0, +∞ included, and every extended real a — infinite ones too — the two
  spellings agree. (At x = 0 they differ in general: a · (+∞) against the quotient by zero.)
-/
import Idealize.ShloMosaic.PureOps.Ideal

noncomputable section

namespace Cert.Lib.InvRoot

open Idealize.ShloMosaic

/-- For x > 0, +∞ included, a · x^(-1/2) = a / √x, whatever extended real a is. -/
theorem mul_rsqrt_eq_div_sqrt (a x : EReal) (hx : 0 < x) : a * Ideal.rsqrt x = Ideal.div a (Ideal.sqrt x) := by
  induction x using EReal.rec with
  | bot => exact absurd hx not_lt_bot
  | top =>
    show a * 0 = Ideal.div a ⊤
    unfold Ideal.div
    rw [if_neg (by simp), EReal.inv_top]
  | coe r =>
    have hr : (0 : ℝ) < r := by exact_mod_cast hx
    have h0 : ¬ r < 0 := by linarith
    have h1 : r ≠ 0 := hr.ne'
    have hs : Real.sqrt r ≠ 0 := (Real.sqrt_pos.2 hr).ne'
    rw [Ideal.rsqrt_coe, Ideal.sqrt_coe, if_neg h0, if_neg h1, if_neg h0]
    unfold Ideal.div
    rw [if_neg (by exact_mod_cast hs), EReal.coe_inv]

/-- The same read from right to left: a quotient by the root of a positive x is the product with its inverse root. -/
theorem div_sqrt_eq_mul_rsqrt (a x : EReal) (hx : 0 < x) : Ideal.div a (Ideal.sqrt x) = a * Ideal.rsqrt x :=
  (mul_rsqrt_eq_div_sqrt a x hx).symm

end Cert.Lib.InvRoot

end
-- ==== Proof.Spec.lean ====
/-
  The common mathematics of the two programs, as functions of whole arrays over the extended reals.

  A triple t has three gathered rows g1 t, g2 t, gc t of 48 numbers and two distances. Its message is
  msg t c = ∑ h, (g1 t h + g2 t h) · W3 c h, its pre-activation
  pre t o = ∑ c, gc t c · Wa o c + ∑ c, msg t c · Wb o c   (Wa, Wb the two 48-column halves of Wu),
  and its update is leaky(pre t o) · w t, where leaky x is x for x > 0 and 0.01·x otherwise and
  w t = 1 + 0.3 · |d1 − d2| / (max d1 d2 + 1e-8) is the triple's weight.

  A node r has a row h r, an aggregated row agg r and a scale s r. Its normalised row is
  x r q = h r q + agg r q · s r, centred by the row mean over the 48 lanes, divided by the root of the row's mean
  square deviation plus 1e-5, times gamma q plus beta q.

  One law joins the two programs' spellings of the scale: for x > 0 (also x = +∞) a · x^(-1/2) = a / √x; a clamped
  count is at least 1.
-/
import Idealize.ShloMosaic.Lib.ValueIdx
import Idealize.ShloMosaic.Lib.IdealHost
import Idealize.ShloMosaic.PureOps.Ideal
import proofs.«159755_j66537633349676_1_alg».proof.Proof.LibInvRoot

noncomputable section

namespace Cert.Spec

open Idealize.ShloMosaic Idealize.ShloMosaic.ValueIdx

/-- The weight of a triple from its two distances: 1 + 0.3 · |a − b| / (max a b + 1e-8). -/
def weight (a b : EReal) : EReal :=
  Ideal.ofBits .f32 0x3F800000#32
    + Ideal.ofBits .f32 0x3E99999A#32 * Ideal.div (FloatOps.absf (F := Ideal) (φ := .f32) (a - b)) (max a b + Ideal.ofBits .f32 0x322BCC77#32)

/-- The message of triple t at lane c: the two neighbour rows added, contracted with row c of W3. -/
def msg (g1 g2 : (⟨2, ![2000000, 48]⟩ : Shape).Idx → EReal) (w3 : (⟨2, ![48, 48]⟩ : Shape).Idx → EReal)
    (t : Fin 2000000) (c : Fin 48) : EReal :=
  ∑ h : Fin 48, (g1 (ix2 t h) + g2 (ix2 t h)) * w3 (ix2 c h)

/-- The pre-activation of triple t at output lane o: the centre row against the first half of Wu's row o plus the
    message against the second half. -/
def pre (g1 g2 gc : (⟨2, ![2000000, 48]⟩ : Shape).Idx → EReal) (w3 : (⟨2, ![48, 48]⟩ : Shape).Idx → EReal)
    (wa wb : Fin 48 → Fin 48 → EReal) (t : Fin 2000000) (o : Fin 48) : EReal :=
  (∑ c : Fin 48, gc (ix2 t c) * wa o c) + ∑ c : Fin 48, msg g1 g2 w3 t c * wb o c

/-- The leaky rectifier: x where x > 0, 0.01 · x elsewhere. -/
def leaky (x : EReal) : EReal :=
  Scalar.select (FloatOps.cmpf (F := Ideal) (φ := .f32) .ogt x (Ideal.ofBits .f32 0x00000000#32)) x (Ideal.ofBits .f32 0x3C23D70A#32 * x)

/-- The per-triple update as one array [2000000, 48]: leaky(pre t o) · w t. -/
def delta (g1 g2 gc : (⟨2, ![2000000, 48]⟩ : Shape).Idx → EReal) (w : Fin 2000000 → EReal)
    (w3 : (⟨2, ![48, 48]⟩ : Shape).Idx → EReal) (wa wb : Fin 48 → Fin 48 → EReal) :
    (⟨2, ![2000000, 48]⟩ : Shape).Idx → EReal :=
  fun i => leaky (pre g1 g2 gc w3 wa wb (i 0) (i 1)) * w (i 0)

/-- Node r's row before normalisation: h + agg · s r. -/
def xrow (h agg : (⟨2, ![100000, 48]⟩ : Shape).Idx → EReal) (s : Fin 100000 → EReal) (r : Fin 100000) (q : Fin 48) : EReal :=
  h (ix2 r q) + agg (ix2 r q) * s r

/-- The row mean over the 48 lanes. -/
def mean (h agg : (⟨2, ![100000, 48]⟩ : Shape).Idx → EReal) (s : Fin 100000 → EReal) (r : Fin 100000) : EReal :=
  Ideal.div (∑ q : Fin 48, xrow h agg s r q) (Ideal.ofBits .f32 0x42400000#32)

/-- The centred row. -/
def centred (h agg : (⟨2, ![100000, 48]⟩ : Shape).Idx → EReal) (s : Fin 100000 → EReal) (r : Fin 100000) (q : Fin 48) : EReal :=
  xrow h agg s r q - mean h agg s r

/-- The row's mean square deviation. -/
def variance (h agg : (⟨2, ![100000, 48]⟩ : Shape).Idx → EReal) (s : Fin 100000 → EReal) (r : Fin 100000) : EReal :=
  Ideal.div (∑ q : Fin 48, centred h agg s r q * centred h agg s r q) (Ideal.ofBits .f32 0x42400000#32)

/-- The layer's result as one array [100000, 48]. -/
def lnorm (h agg : (⟨2, ![100000, 48]⟩ : Shape).Idx → EReal) (s : Fin 100000 → EReal) (gam bet : Fin 48 → EReal) :
    (⟨2, ![100000, 48]⟩ : Shape).Idx → EReal :=
  fun i => centred h agg s (i 0) (i 1) * Ideal.rsqrt (variance h agg s (i 0) + Ideal.ofBits .f32 0x3727C5AC#32) * gam (i 1) + bet (i 1)

/-- The scale of a node from its count: (max n 1)^(-1/2). -/
def scale (n : EReal) : EReal := Ideal.rsqrt (max n (Ideal.ofBits .f32 0x3F800000#32))

/-- Dividing an aggregated entry by the root of the clamped count is multiplying it by the node's scale. -/
theorem div_sqrt_eq_mul_scale (a n : EReal) :
    Ideal.div a (Ideal.sqrt (max n (Ideal.ofBits .f32 0x3F800000#32))) = a * scale n := by
  unfold scale
  exact Cert.Lib.InvRoot.div_sqrt_eq_mul_rsqrt a _
    (lt_of_lt_of_le (by rw [Ideal.ofBits_one_f32]; exact zero_lt_one) (le_max_right _ _))

end Cert.Spec

end
-- ==== Proof.LibPlainMatmul.lean ====
/-
  A plain two-axis matrix product into a zero accumulator, read at an index given by coordinates: for dimension
  numbers that contract the left operand's columns with the right operand's rows, an `[m, k] · [k, n]` product whose
  accumulator is the zero splat reads, at `(r, c)`, the sum over `f` of left `(r, f)` times right `(f, c)` over the
  extended reals — the same sum the host's `dot_general` with these dimension numbers reads there.
-/
import Idealize.ShloMosaic.Lib.ValueIdx
import Idealize.ShloMosaic.PureOps.Ideal.Laws

noncomputable section

namespace Cert.PlainMatmul

open Idealize.ShloMosaic Idealize.ShloMosaic.ValueIdx

/-- For dimension numbers that contract the left operand's columns with the right operand's rows (`hl0` … `hr1`: the
    operand indices at an output index and a contraction position, read off the numbers), an `[m, k] · [k, n]`
    product into the zero accumulator reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainMatmul

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.Region0.lean ====
/-
  The first region, the per-triple update. A point t of the grid of 500 holds rows 4000·t … 4000·t + 3999 of the three
  gathered row arrays and of the two distance columns, and the three [48, 48] weight arrays whole. Its body forms, per
  row p and lane q of its block,
    leaky( ∑ k, centre(p, k) · Wa(q, k) + ∑ k, (∑ h, (nb1(p, h) + nb2(p, h)) · W3(k, h)) · Wb(q, k) ) · (1 + 0.3 · |d1 − d2| / (max d1 d2 + 1e-8)),
  each of the three products a [4000, 48] · [48, 48] product with the transpose of a weight block into the zero
  accumulator; the narrowing of the products' operands is the identity over the extended reals. Written back block by
  block, the 500 blocks tile the [2000000, 48] array, so after the region the array is the per-triple update of the
  arrays the region found, at every index.
-/
import proofs.«159755_j66537633349676_1_alg».proof.Proof.Gen.KernelIdeal.Frame
import proofs.«159755_j66537633349676_1_alg».proof.Proof.Spec
import proofs.«159755_j66537633349676_1_alg».proof.Proof.LibPlainMatmul
import proofs.«159755_j66537633349676_1_alg».proof.Proof.LibColumnBroadcast
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Region0

open Cert.KernelIdeal Cert.KernelIdeal.Gen Idealize.ShloMosaic Idealize.ShloMosaic.ValueIdx Idealize.ShloMosaic.Pipeline Idealize.ShloMosaic.TcCoe

/-! ## The body's arithmetic at an index -/

local notation "D₀" => dot_S4000x48_S48x48_S4000x48_1_0_0_1_n_n

theorem dot_lhs0 (j : S4000x48.Idx) (q : (D₀).contr.Idx) : ((D₀).lhsIdx j q 0).val = (j 0).val := by
  unfold DotDims.lhsIdx
  rw [dif_neg (show ¬(0 : Fin S4000x48.rank) ∈ (D₀).lhsBatch by decide), dif_pos (show (0 : Fin S4000x48.rank) ∈ (D₀).lhsNonContracting by decide)]
  rfl

theorem dot_lhs1 (j : S4000x48.Idx) (q : (D₀).contr.Idx) : ((D₀).lhsIdx j q 1).val = (q ⟨0, by decide⟩).val :=
  (D₀).lhsIdx_val_of_single rfl j q

theorem dot_rhs0 (j : S4000x48.Idx) (q : (D₀).contr.Idx) : ((D₀).rhsIdx j q 0).val = (q ⟨0, by decide⟩).val :=
  (D₀).rhsIdx_val_of_single rfl j q

theorem dot_rhs1 (j : S4000x48.Idx) (q : (D₀).contr.Idx) : ((D₀).rhsIdx j q 1).val = (j 1).val := by
  unfold DotDims.rhsIdx
  rw [dif_neg (show ¬(1 : Fin S48x48.rank) ∈ (D₀).rhsBatch by decide), dif_pos (show (1 : Fin S48x48.rank) ∈ (D₀).rhsNonContracting by decide)]
  rfl

/-- A product of a [4000, 48] block with the transpose of a [48, 48] block, into the zero accumulator: entry (p, q) is
    the sum over k of the left block's (p, k) times the right block's (q, k). -/
theorem matmul_transposed_apply {φ₁ φ₂ : FTy} (a : FVec Ideal S4000x48 φ₁) (w : FVec Ideal S48x48 φ₂) (p : Fin 4000) (q : Fin 48) :
    FloatOps.matmul (D₀) none a (transpose S48x48 [1, 0] w transposes_S48x48_p1_0_S48x48) (constant (F := Ideal) S4000x48 .f32 0x00000000#32) (ix2 p q)
      = ∑ k : Fin 48, a (ix2 p k) * w (ix2 q k) := by
  refine (Cert.PlainMatmul.matmul_zero_ix2_apply (D₀) rfl rfl dot_lhs0 dot_lhs1 dot_rhs0 dot_rhs1 none a _ p q).trans ?_
  refine Finset.sum_congr rfl fun k _ => ?_
  refine congrArg (a (ix2 p k) * ·) ?_
  refine transpose_apply [1, 0] w transposes_S48x48_p1_0_S48x48 (ix2 k q) (ix2 q k) fun b => ?_
  match b with
  | ⟨0, _⟩ => rfl
  | ⟨1, _⟩ => rfl

/-- The pre-activation block at (p, q): the centre block's row p against row q of the first weight block, plus the
    message row (the two neighbour blocks added, against the rows of the message weights) against row q of the second. -/
theorem pay2_apply (x0 x1 : FVec Ideal S4000x48 .f32) (x5 : FVec Ideal S48x48 .f32) (x2 : FVec Ideal S4000x48 .f32)
    (x6 x7 : FVec Ideal S48x48 .f32) (p : Fin 4000) (q : Fin 48) :
    k0_pay2 (F := Ideal) x0 x1 x5 x2 x6 x7 (ix2 p q)
      = (∑ k : Fin 48, x2 (ix2 p k) * x6 (ix2 q k))
        + ∑ k : Fin 48, (∑ h : Fin 48, (x0 (ix2 p h) + x1 (ix2 p h)) * x5 (ix2 k h)) * x7 (ix2 q k) := by
  unfold k0_pay2
  simp only [shapeCast_self]
  refine (addf_apply _ _ _).trans ?_
  refine congrArg₂ (· + ·) ?_ ?_
  · exact matmul_transposed_apply _ _ p q
  · refine (matmul_transposed_apply _ _ p q).trans ?_
    refine Finset.sum_congr rfl fun k _ => ?_
    refine congrArg (· * x7 (ix2 q k)) ?_
    exact matmul_transposed_apply _ _ p k

/-- The weight column without its leading one: 0.3 · |a − b| / (max a b + 1e-8) of the two distance columns. -/
theorem pay3_apply (x3 x4 : FVec Ideal S4000x1 .f32) (i : S4000x1.Idx) :
    k0_pay3 (F := Ideal) x3 x4 i
      = Ideal.ofBits .f32 0x3E99999A#32
          * Ideal.div (FloatOps.absf (F := Ideal) (φ := .f32) (x3 i - x4 i)) (max (x3 i) (x4 i) + Ideal.ofBits .f32 0x322BCC77#32) := by
  unfold k0_pay3
  simp only [shapeCast_self]
  rfl

/-- The stored block at (p, q): the leaky rectifier of the pre-activation there times one plus the weight column's
    entry of row p. -/
theorem pay1_apply (v : FVec Ideal S4000x48 .f32) (u : FVec Ideal S4000x1 .f32) (p : Fin 4000) (q : Fin 48) :
    k0_pay1 (F := Ideal) v u (Scalar.ofBits .f32 0x3F800000#32) (ix2 p q)
      = Cert.Spec.leaky (v (ix2 p q)) * (Ideal.ofBits .f32 0x3F800000#32 + u (ix2 p (0 : Fin 1))) := by
  unfold k0_pay1
  refine (mulf_apply _ _ _).trans ?_
  refine congrArg₂ (· * ·) ?_ ?_
  · rfl
  · refine (Cert.Lib.ColumnBroadcast.broadcastTo_a1_ab_apply _ _ p q).trans ?_
    rfl

/-- THE PAYLOAD AT AN INDEX: what the body stores at (p, q) of its block, from the eight loaded blocks. -/
theorem payload_apply (x0 x1 x2 : FVec Ideal S4000x48 .f32) (x3 x4 : FVec Ideal S4000x1 .f32) (x5 x6 x7 : FVec Ideal S48x48 .f32)
    (p : Fin 4000) (q : Fin 48) :
    k0_pay1 (F := Ideal) (k0_pay2 x0 x1 x5 x2 x6 x7) (k0_pay3 x3 x4) (Scalar.ofBits .f32 0x3F800000#32) (ix2 p q)
      = Cert.Spec.leaky ((∑ k : Fin 48, x2 (ix2 p k) * x6 (ix2 q k))
            + ∑ k : Fin 48, (∑ h : Fin 48, (x0 (ix2 p h) + x1 (ix2 p h)) * x5 (ix2 k h)) * x7 (ix2 q k))
          * Cert.Spec.weight (x3 (ix2 p (0 : Fin 1))) (x4 (ix2 p (0 : Fin 1))) := by
  rw [pay1_apply, pay2_apply, pay3_apply]
  rfl

/-- The payload against the whole arrays: if row p of the five row blocks is row r of the arrays g1, g2, gc, d1, d2 and the
    three weight blocks are the arrays w3, wa, wb, then what the body stores at (p, q) is the per-triple update at (r, q). -/
theorem payload_eq_delta (x0 x1 x2 : FVec Ideal S4000x48 .f32) (x3 x4 : FVec Ideal S4000x1 .f32) (x5 x6 x7 : FVec Ideal S48x48 .f32)
    (g1 g2 gc : S2000000x48.Idx → EReal) (d1 d2 : S2000000x1.Idx → EReal) (w3 wa wb : S48x48.Idx → EReal)
    (p : Fin 4000) (q : Fin 48) (r : Fin 2000000)
    (h0 : ∀ h : Fin 48, x0 (ix2 p h) = g1 (ix2 r h)) (h1 : ∀ h : Fin 48, x1 (ix2 p h) = g2 (ix2 r h))
    (h2 : ∀ h : Fin 48, x2 (ix2 p h) = gc (ix2 r h))
    (h3 : x3 (ix2 p (0 : Fin 1)) = d1 (ix2 r (0 : Fin 1))) (h4 : x4 (ix2 p (0 : Fin 1)) = d2 (ix2 r (0 : Fin 1)))
    (h5 : ∀ a b : Fin 48, x5 (ix2 a b) = w3 (ix2 a b)) (h6 : ∀ a b : Fin 48, x6 (ix2 a b) = wa (ix2 a b))
    (h7 : ∀ a b : Fin 48, x7 (ix2 a b) = wb (ix2 a b)) :
    k0_pay1 (F := Ideal) (k0_pay2 x0 x1 x5 x2 x6 x7) (k0_pay3 x3 x4) (Scalar.ofBits .f32 0x3F800000#32) (ix2 p q)
      = Cert.Spec.delta g1 g2 gc (fun t => Cert.Spec.weight (d1 (ix2 t (0 : Fin 1))) (d2 (ix2 t (0 : Fin 1))))
          w3 (fun o k => wa (ix2 o k)) (fun o k => wb (ix2 o k)) (ix2 r q) := by
  rw [payload_apply]
  simp only [h0, h1, h2, h3, h4, h5, h6, h7]
  rfl

/-! ## From the blocks to the array -/

theorem hz : (![0, 0] : Fin 2 → Nat) = fun _ => 0 := funext fun a => by fin_cases a <;> rfl

/-- The printed index maps, decided over the grid: the five row windows and the output are at block (t, 0) at point t,
    the three weight windows at block (0, 0). -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = t.val ∧ win0_3.index t (1 : Fin 2) = 0
  ∧ win0_4.index t (0 : Fin 2) = t.val ∧ win0_4.index t (1 : Fin 2) = 0
  ∧ win0_5.index t (0 : Fin 2) = 0 ∧ win0_5.index t (1 : Fin 2) = 0
  ∧ win0_6.index t (0 : Fin 2) = 0 ∧ win0_6.index t (1 : Fin 2) = 0
  ∧ win0_7.index t (0 : Fin 2) = 0 ∧ win0_7.index t (1 : Fin 2) = 0
  ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b))

/-- The whole-array function: the per-triple update of the region's entry arrays. -/
abbrev G (c : Dev nD) : S2000000x48.Idx → EReal :=
  Cert.Spec.delta (V c main_v12) (V c main_v19) (V c main_v26)
    (fun t => Cert.Spec.weight (V c main_v27 (ix2 t (0 : Fin 1))) (V c main_v28 (ix2 t (0 : Fin 1))))
    (V c main_arg4) (fun o k => V c main_v29 (ix2 o k)) (fun o k => V c main_v30 (ix2 o k))

/-- The output window's block at point t sits at rows 4000·t … 4000·t + 3999, all 48 lanes. -/
theorem out_emb (t : Fin cfg0.N) (p : Fin 4000) (q : Fin 48) (r : Fin 2000000) (hr : r.val = t.val * 4000 + p.val) :
    ((cfg0.win 8).blk t).view.emb (ix2 p q) = (ix2 r q : S2000000x48.Idx) := by
  obtain ⟨-, -, -, -, -, -, -, -, -, -, -, -, -, -, -, -, e0, e1⟩ := idx_facts t
  funext a
  apply Fin.ext
  match a with
  | ⟨0, _⟩ => show win0_8.index t (0 : Fin 2) * 4000 + 1 * p.val = r.val; omega
  | ⟨1, _⟩ => show win0_8.index t (1 : Fin 2) * 48 + 1 * q.val = q.val; omega

/-- Row p of the first neighbour window's block at point t is row 4000·t + p of its array. -/
theorem iblk_nb1 (c : Dev nD) (t : Fin cfg0.N) (p : Fin 4000) (h : Fin 48) (r : Fin 2000000) (hr : r.val = t.val * 4000 + p.val) :
    (iblk0 V c 0 t : S4000x48.Idx → EReal) (ix2 p h) = (V c main_v12 : S2000000x48.Idx → EReal) (ix2 r h) := by
  obtain ⟨e0, e1, -⟩ := idx_facts t
  show V c main_v12 (((cfg0.win 0).blk t).view.emb (ix2 p h)) = _
  refine congrArg (V c main_v12) ?_
  funext a
  apply Fin.ext
  match a with
  | ⟨0, _⟩ => show win0_0.index t (0 : Fin 2) * 4000 + 1 * p.val = r.val; omega
  | ⟨1, _⟩ => show win0_0.index t (1 : Fin 2) * 48 + 1 * h.val = h.val; omega

/-- Row p of the second neighbour window's block at point t is row 4000·t + p of its array. -/
theorem iblk_nb2 (c : Dev nD) (t : Fin cfg0.N) (p : Fin 4000) (h : Fin 48) (r : Fin 2000000) (hr : r.val = t.val * 4000 + p.val) :
    (iblk0 V c 1 t : S4000x48.Idx → EReal) (ix2 p h) = (V c main_v19 : S2000000x48.Idx → EReal) (ix2 r h) := by
  obtain ⟨-, -, e0, e1, -⟩ := idx_facts t
  show V c main_v19 (((cfg0.win 1).blk t).view.emb (ix2 p h)) = _
  refine congrArg (V c main_v19) ?_
  funext a
  apply Fin.ext
  match a with
  | ⟨0, _⟩ => show win0_1.index t (0 : Fin 2) * 4000 + 1 * p.val = r.val; omega
  | ⟨1, _⟩ => show win0_1.index t (1 : Fin 2) * 48 + 1 * h.val = h.val; omega

/-- Row p of the centre window's block at point t is row 4000·t + p of its array. -/
theorem iblk_centre (c : Dev nD) (t : Fin cfg0.N) (p : Fin 4000) (h : Fin 48) (r : Fin 2000000) (hr : r.val = t.val * 4000 + p.val) :
    (iblk0 V c 2 t : S4000x48.Idx → EReal) (ix2 p h) = (V c main_v26 : S2000000x48.Idx → EReal) (ix2 r h) := by
  obtain ⟨-, -, -, -, e0, e1, -⟩ := idx_facts t
  show V c main_v26 (((cfg0.win 2).blk t).view.emb (ix2 p h)) = _
  refine congrArg (V c main_v26) ?_
  funext a
  apply Fin.ext
  match a with
  | ⟨0, _⟩ => show win0_2.index t (0 : Fin 2) * 4000 + 1 * p.val = r.val; omega
  | ⟨1, _⟩ => show win0_2.index t (1 : Fin 2) * 48 + 1 * h.val = h.val; omega

/-- Entry p of the first distance window's block at point t is entry 4000·t + p of its column. -/
theorem iblk_dist1 (c : Dev nD) (t : Fin cfg0.N) (p : Fin 4000) (r : Fin 2000000) (hr : r.val = t.val * 4000 + p.val) :
    (iblk0 V c 3 t : S4000x1.Idx → EReal) (ix2 p (0 : Fin 1)) = (V c main_v27 : S2000000x1.Idx → EReal) (ix2 r (0 : Fin 1)) := by
  obtain ⟨-, -, -, -, -, -, e0, e1, -⟩ := idx_facts t
  show V c main_v27 (((cfg0.win 3).blk t).view.emb (ix2 p (0 : Fin 1))) = _
  refine congrArg (V c main_v27) ?_
  funext a
  apply Fin.ext
  match a with
  | ⟨0, _⟩ => show win0_3.index t (0 : Fin 2) * 4000 + 1 * p.val = r.val; omega
  | ⟨1, _⟩ => show win0_3.index t (1 : Fin 2) * 1 + 1 * 0 = 0; omega

/-- Entry p of the second distance window's block at point t is entry 4000·t + p of its column. -/
theorem iblk_dist2 (c : Dev nD) (t : Fin cfg0.N) (p : Fin 4000) (r : Fin 2000000) (hr : r.val = t.val * 4000 + p.val) :
    (iblk0 V c 4 t : S4000x1.Idx → EReal) (ix2 p (0 : Fin 1)) = (V c main_v28 : S2000000x1.Idx → EReal) (ix2 r (0 : Fin 1)) := by
  obtain ⟨-, -, -, -, -, -, -, -, e0, e1, -⟩ := idx_facts t
  show V c main_v28 (((cfg0.win 4).blk t).view.emb (ix2 p (0 : Fin 1))) = _
  refine congrArg (V c main_v28) ?_
  funext a
  apply Fin.ext
  match a with
  | ⟨0, _⟩ => show win0_4.index t (0 : Fin 2) * 4000 + 1 * p.val = r.val; omega
  | ⟨1, _⟩ => show win0_4.index t (1 : Fin 2) * 1 + 1 * 0 = 0; omega

/-- The message weights' window holds the whole [48, 48] array at every point. -/
theorem iblk_w3 (c : Dev nD) (t : Fin cfg0.N) (a b : Fin 48) :
    (iblk0 V c 5 t : S48x48.Idx → EReal) (ix2 a b) = (V c main_arg4 : S48x48.Idx → EReal) (ix2 a b) := by
  obtain ⟨-, -, -, -, -, -, -, -, -, -, e0, e1, -⟩ := idx_facts t
  show V c main_arg4 (((cfg0.win 5).blk t).view.emb (ix2 a b)) = _
  refine congrArg (V c main_arg4) ?_
  funext ax
  apply Fin.ext
  match ax with
  | ⟨0, _⟩ => show win0_5.index t (0 : Fin 2) * 48 + 1 * a.val = a.val; omega
  | ⟨1, _⟩ => show win0_5.index t (1 : Fin 2) * 48 + 1 * b.val = b.val; omega

/-- The first update weights' window holds the whole [48, 48] array at every point. -/
theorem iblk_wa (c : Dev nD) (t : Fin cfg0.N) (a b : Fin 48) :
    (iblk0 V c 6 t : S48x48.Idx → EReal) (ix2 a b) = (V c main_v29 : S48x48.Idx → EReal) (ix2 a b) := by
  obtain ⟨-, -, -, -, -, -, -, -, -, -, -, -, e0, e1, -⟩ := idx_facts t
  show V c main_v29 (((cfg0.win 6).blk t).view.emb (ix2 a b)) = _
  refine congrArg (V c main_v29) ?_
  funext ax
  apply Fin.ext
  match ax with
  | ⟨0, _⟩ => show win0_6.index t (0 : Fin 2) * 48 + 1 * a.val = a.val; omega
  | ⟨1, _⟩ => show win0_6.index t (1 : Fin 2) * 48 + 1 * b.val = b.val; omega

/-- The second update weights' window holds the whole [48, 48] array at every point. -/
theorem iblk_wb (c : Dev nD) (t : Fin cfg0.N) (a b : Fin 48) :
    (iblk0 V c 7 t : S48x48.Idx → EReal) (ix2 a b) = (V c main_v30 : S48x48.Idx → EReal) (ix2 a b) := by
  obtain ⟨-, -, -, -, -, -, -, -, -, -, -, -, -, -, e0, e1, -, -⟩ := idx_facts t
  show V c main_v30 (((cfg0.win 7).blk t).view.emb (ix2 a b)) = _
  refine congrArg (V c main_v30) ?_
  funext ax
  apply Fin.ext
  match ax with
  | ⟨0, _⟩ => show win0_7.index t (0 : Fin 2) * 48 + 1 * a.val = a.val; omega
  | ⟨1, _⟩ => show win0_7.index t (1 : Fin 2) * 48 + 1 * b.val = b.val; omega

/-- WHAT POINT t WRITES BACK is block t of the per-triple update of the arrays as the region finds them. -/
theorem flushed_eq (c : Dev nD) (t : Fin cfg0.N) :
    (dat0 (F := Ideal) V c).flushed 8 t = ((cfg0.win 8).blk t).view.read (Elt Ideal) (G V c) := by
  show (cfg0.win 8).cut (grid0.coords t) ((dat0 (F := Ideal) V c).after 8 t) = _
  rw [after0_8]
  unfold out0_8
  rw [View.canon_unit_zero hz]
  simp only [View.ld_unit_zero (S := S4000x48) hz, View.ld_unit_zero (S := S48x48) hz, View.ld_unit_zero (S := S4000x1) hz]
  funext j
  obtain ⟨p, q, rfl⟩ : ∃ (p : Fin 4000) (q : Fin 48), j = ix2 p q := ⟨j 0, j 1, eq_ix2 j⟩
  have hN : cfg0.N = 500 := N_0
  obtain ⟨r, hr⟩ : ∃ r : Fin 2000000, r.val = t.val * 4000 + p.val :=
    ⟨⟨t.val * 4000 + p.val, by have := t.isLt; have := p.isLt; omega⟩, rfl⟩
  show k0_pay1 (F := Ideal) _ _ _ (ix2 p q) = G V c (((cfg0.win 8).blk t).view.emb (ix2 p q))
  rw [out_emb t p q r hr]
  exact payload_eq_delta _ _ _ _ _ _ _ _ (V c main_v12) (V c main_v19) (V c main_v26) (V c main_v27) (V c main_v28)
    (V c main_arg4) (V c main_v29) (V c main_v30) p q r
    (fun h => iblk_nb1 V c t p h r hr) (fun h => iblk_nb2 V c t p h r hr) (fun h => iblk_centre V c t p h r hr)
    (iblk_dist1 V c t p r hr) (iblk_dist2 V c t p r hr)
    (fun a b => iblk_w3 V c t a b) (fun a b => iblk_wa V c t a b) (fun a b => iblk_wb V c t a b)

/-- An index of the array is in point t's block iff each coordinate is in the block's range on its axis. -/
theorem mem_blk (t : Fin cfg0.N) (i : S2000000x48.Idx) :
    i ∈ ((cfg0.win 8).blk t).view.set ↔ ∀ a : Fin 2, win0_8.index t a * S4000x48.size a ≤ (i a).val
      ∧ (i a).val < win0_8.index t a * S4000x48.size a + S4000x48.size a := by
  show i ∈ ((View.whole main_v31).slice (win0_8.rect t)).set ↔ _
  rw [View.set_slice_whole, Rect.mem_set_unit]
  exact Iff.rfl

/-- Every index of the array is in some point's block: row r is in the block of point r / 4000. -/
theorem covered (i : S2000000x48.Idx) :
    ∃ t : Fin cfg0.N, (cfg0.win 8).flush t = true ∧ i ∈ ((cfg0.win 8).blk t).view.set := by
  have hN : cfg0.N = 500 := N_0
  have hi0 : (i 0).val < 2000000 := (i 0).isLt
  have hi1 : (i 1).val < 48 := (i 1).isLt
  obtain ⟨t, ht⟩ : ∃ t : Fin cfg0.N, t.val = (i 0).val / 4000 := ⟨⟨(i 0).val / 4000, by omega⟩, rfl⟩
  obtain ⟨-, -, -, -, -, -, -, -, -, -, -, -, -, -, -, -, e0, e1⟩ := idx_facts t
  refine ⟨t, flush0_8 t, ?_⟩
  rw [mem_blk]
  intro a
  match a with
  | ⟨0, _⟩ =>
    show win0_8.index t (0 : Fin 2) * 4000 ≤ (i 0).val ∧ (i 0).val < win0_8.index t (0 : Fin 2) * 4000 + 4000
    omega
  | ⟨1, _⟩ =>
    show win0_8.index t (1 : Fin 2) * 48 ≤ (i 1).val ∧ (i 1).val < win0_8.index t (1 : Fin 2) * 48 + 48
    omega

/-- THE ARRAY after the region: the per-triple update of the arrays as the region finds them, at every index. -/
theorem arr_eq (c : Dev nD) :
    (dat0 (F := Ideal) V c).arrAt 8 cfg0.N
      = Cert.Spec.delta (V c main_v12) (V c main_v19) (V c main_v26)
          (fun t => Cert.Spec.weight (V c main_v27 (ix2 t (0 : Fin 1))) (V c main_v28 (ix2 t (0 : Fin 1))))
          (V c main_arg4) (fun o k => V c main_v29 (ix2 o k)) (fun o k => V c main_v30 (ix2 o k)) :=
  (dat0 (F := Ideal) V c).arrAt_eq_of_cover 8 (G V c) (fun t _ => flushed_eq V c t) covered

end Cert.KernelIdeal.Region0

end
-- ==== Proof.LibLaneOps.lean ====
/-
  Three readings at an index, over literal two-axis shapes: the sum of an [a, c] matrix along its lanes at a row; one
  column of an [a, b] array cut out as an [a, 1] slice; and the scalar at one lane of a one-row array, taken as a
  [1, 1] slice and extracted.
-/
import Idealize.ShloMosaic.Lib.ValueIdx
import Idealize.ShloMosaic.Lib.Pipeline.Value
import Idealize.ShloMosaic.PureOps.Ideal.Laws

noncomputable section

namespace Cert.Lib.LaneOps

open Idealize.ShloMosaic Idealize.ShloMosaic.ValueIdx

variable {α : Type}

/-- The sum of an `[a, c]` matrix along its lanes reads, at row `r`, the sum over `k` of the matrix at `(r, k)`. -/
theorem laneSum2_apply {a c : ℕ} (src : FVec Ideal ⟨2, ![a, c]⟩ .f32)
    (h : (⟨2, ![a, c]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin c, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- Column `j` of an `[a, b]` array, cut out as an `[a, 1]` slice, reads at `(r, 0)` the array at `(r, j)`. -/
theorem colSlice_apply {a b : ℕ} (x : (⟨2, ![a, b]⟩ : Shape).Idx → α) (j : ℕ) (hj : j < b)
    (h : (⟨2, ![a, b]⟩ : Shape).Slices ![0, j] ⟨2, ![a, 1]⟩) (r : Fin a) :
    extractStridedSlice ⟨2, ![a, 1]⟩ ![0, j] x h (ix2 r (0 : Fin 1)) = x (ix2 r (⟨j, hj⟩ : Fin b)) := by
  refine extractStridedSlice_apply ![0, j] x h (ix2 r (0 : Fin 1)) (ix2 r (⟨j, hj⟩ : Fin b)) fun ax => ?_
  match ax with
  | ⟨0, _⟩ => exact (Nat.zero_add _).symm
  | ⟨1, _⟩ => rfl

/-- The scalar at lane `j` of a one-row array, taken as a `[1, 1]` slice and then extracted. -/
theorem laneScalar_apply {b : ℕ} (x : (⟨2, ![1, b]⟩ : Shape).Idx → α) (j : ℕ) (hj : j < b)
    (h : (⟨2, ![1, b]⟩ : Shape).Slices ![0, j] ⟨2, ![1, 1]⟩) (hp : ∀ a, (![0, 0] : Fin 2 → ℕ) a < (⟨2, ![1, 1]⟩ : Shape).size a) :
    extractAt ![0, 0] (extractStridedSlice ⟨2, ![1, 1]⟩ ![0, j] x h) hp = x (ix2 (0 : Fin 1) (⟨j, hj⟩ : Fin b)) := by
  unfold extractAt
  refine extractStridedSlice_apply ![0, j] x h _ (ix2 (0 : Fin 1) (⟨j, hj⟩ : Fin b)) fun ax => ?_
  match ax with
  | ⟨0, _⟩ => rfl
  | ⟨1, _⟩ => rfl

end Cert.Lib.LaneOps

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.Region1Payload.lean ====
/-
  The layer norm's body at one index of its block.

  A block holds 5000 rows of 48 lanes. Row p of the block is x p k = a (p, k) + b (p, k) · (max (n (p, 0)) 1)^(-1/2);
  the body subtracts the row's mean over the 48 lanes, divides by the root of the row's mean square deviation plus
  1e-5 (as a multiplication by the reciprocal root), multiplies by the one row g and adds the one row d. Every step is
  read at an index: the pointwise operations by unfolding, a lane sum as a finite sum, a kept axis as the flat vector,
  a column or a row repeated as its one entry.
-/
import proofs.«159755_j66537633349676_1_alg».proof.Proof.Gen.KernelIdeal.Skeleton
import proofs.«159755_j66537633349676_1_alg».proof.Proof.Spec
import proofs.«159755_j66537633349676_1_alg».proof.Proof.LibLaneOps
import proofs.«159755_j66537633349676_1_alg».proof.Proof.LibColumnCast
import proofs.«159755_j66537633349676_1_alg».proof.Proof.LibColumnBroadcast
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Region1

open Cert.KernelIdeal Cert.KernelIdeal.Gen Idealize.ShloMosaic Idealize.ShloMosaic.ValueIdx Idealize.ShloMosaic.Pipeline

/-- One normalised row: the row x minus its mean over the 48 lanes, times the reciprocal root of its mean square
    deviation plus 1e-5, times g, plus d, at lane q. -/
def lnRow (x g d : Fin 48 → EReal) (q : Fin 48) : EReal :=
  (x q - Ideal.div (∑ k : Fin 48, x k) (Ideal.ofBits .f32 0x42400000#32))
      * Ideal.rsqrt (Ideal.div (∑ k : Fin 48, (x k - Ideal.div (∑ j : Fin 48, x j) (Ideal.ofBits .f32 0x42400000#32))
          * (x k - Ideal.div (∑ j : Fin 48, x j) (Ideal.ofBits .f32 0x42400000#32))) (Ideal.ofBits .f32 0x42400000#32)
        + Ideal.ofBits .f32 0x3727C5AC#32)
      * g q
    + d q

/-- The specification's array at (r, q) is the normalised row of node r at lane q. -/
theorem lnorm_apply (h agg : (⟨2, ![100000, 48]⟩ : Shape).Idx → EReal) (s : Fin 100000 → EReal) (gam bet : Fin 48 → EReal)
    (r : Fin 100000) (q : Fin 48) :
    Cert.Spec.lnorm h agg s gam bet (ix2 r q) = lnRow (fun k => h (ix2 r k) + agg (ix2 r k) * s r) gam bet q := rfl

/-- Row p of a block before normalisation, at lane k. -/
def blockRow (x2 : Vec Ideal S5000x1 .f32) (x0 x1 : Vec Ideal S5000x48 .f32) (p : Fin 5000) (k : Fin 48) : EReal :=
  x0 (ix2 p k) + x1 (ix2 p k) * Cert.Spec.scale (x2 (ix2 p (0 : Fin 1)))

/-- The body's row before normalisation, at an index. -/
theorem row_apply (x2 : Vec Ideal S5000x1 .f32) (x0 x1 : Vec Ideal S5000x48 .f32)
    (h1 : S5000x1.ShapeCasts S5000x1) (h2 : S5000x48.ShapeCasts S5000x48) (hb : S5000x1.Broadcasts S5000x48)
    (p : Fin 5000) (k : Fin 48) :
    (addf (F := Ideal) x0 (mulf (shapeCast S5000x48 x1 h2)
        (broadcastTo S5000x48 (rsqrt (maximumf (shapeCast S5000x1 x2 h1)
          (broadcast S5000x1 (Scalar.ofBits (F := Ideal) .f32 0x3F800000#32)))) hb))) (ix2 p k)
      = blockRow x2 x0 x1 p k := by
  show x0 (ix2 p k) + shapeCast S5000x48 x1 h2 (ix2 p k)
      * broadcastTo S5000x48 (rsqrt (maximumf (shapeCast S5000x1 x2 h1)
          (broadcast S5000x1 (Scalar.ofBits (F := Ideal) .f32 0x3F800000#32)))) hb (ix2 p k) = _
  refine congrArg₂ (· + ·) rfl (congrArg₂ (· * ·) (congrFun (shapeCast_self x1 h2) _) ?_)
  refine (Cert.Lib.ColumnBroadcast.broadcastTo_a1_ab_apply _ hb p k).trans ?_
  show Ideal.rsqrt (max (shapeCast S5000x1 x2 h1 (ix2 p (0 : Fin 1))) _) = _
  rw [shapeCast_self x2 h1]
  rfl

/-- A lane sum kept as a column and divided by 48, at row p: the sum of the row over 48. -/
theorem mean_apply (v : FVec Ideal S5000x48 .f32) (hr : S5000x48.Reduces [1] S5000) (hφ : FKind.Formats .f32)
    (hacc : (0x00000000#32 : BitVec 32) = 0x00000000#32) (hc : S5000.ShapeCasts S5000x1) (p : Fin 5000) (u : Fin 1) :
    (divf (F := Ideal) (shapeCast S5000x1 (multiReduction (F := Ideal) .add [1] S5000 v 0x00000000#32 hr hφ hacc) hc)
        (broadcast S5000x1 (Scalar.ofBits (F := Ideal) .f32 0x42400000#32))) (ix2 p u)
      = Ideal.div (∑ k : Fin 48, v (ix2 p k)) (Ideal.ofBits .f32 0x42400000#32) := by
  show Ideal.div (shapeCast S5000x1 (multiReduction (F := Ideal) .add [1] S5000 v 0x00000000#32 hr hφ hacc) hc (ix2 p u)) _ = _
  refine congrArg (fun z => Ideal.div z (Ideal.ofBits .f32 0x42400000#32)) ?_
  refine (Cert.Lib.ColumnCast.shapeCast_a_a1_apply _ hc p u).trans ?_
  exact Cert.Lib.LaneOps.laneSum2_apply v hr hφ hacc p

/-- The body's row before normalisation as one term of its three loaded blocks. -/
def rowTerm (x2 : Vec Ideal S5000x1 .f32) (x0 x1 : Vec Ideal S5000x48 .f32) : FVec Ideal S5000x48 .f32 :=
  addf (F := Ideal) x0 (mulf (shapeCast S5000x48 x1 shapeCasts_S5000x48_S5000x48)
    (broadcastTo S5000x48 (rsqrt (maximumf (shapeCast S5000x1 x2 shapeCasts_S5000x1_S5000x1)
      (broadcast S5000x1 (Scalar.ofBits (F := Ideal) .f32 0x3F800000#32)))) broadcasts_S5000x1_S5000x48))

/-- The lane mean of a block kept as a column. -/
def meanCol (v : FVec Ideal S5000x48 .f32) : FVec Ideal S5000x1 .f32 :=
  divf (F := Ideal) (shapeCast S5000x1 (multiReduction (F := Ideal) .add [1] S5000 v 0x00000000#32 reduces_S5000x48_S5000 (.inl rfl) rfl)
      shapeCasts_S5000_S5000x1)
    (broadcast S5000x1 (Scalar.ofBits (F := Ideal) .f32 0x42400000#32))

/-- A block minus its lane mean. -/
def centredTerm (v : FVec Ideal S5000x48 .f32) : FVec Ideal S5000x48 .f32 :=
  subf (F := Ideal) v (broadcastTo S5000x48 (meanCol v) broadcasts_S5000x1_S5000x48)

/-- The rest of the body from the row before normalisation and the two one-row blocks. -/
def normTerm (v : FVec Ideal S5000x48 .f32) (x3 x4 : Vec Ideal S1x48 .f32) : FVec Ideal S5000x48 .f32 :=
  addf (F := Ideal)
    (mulf (mulf (centredTerm v)
        (broadcastTo S5000x48 (rsqrt (addf (meanCol (mulf (centredTerm v) (centredTerm v)))
          (broadcast S5000x1 (Scalar.ofBits (F := Ideal) .f32 0x3727C5AC#32)))) broadcasts_S5000x1_S5000x48))
      (broadcastTo S5000x48 (shapeCast S1x48 x3 shapeCasts_S1x48_S1x48) broadcasts_S1x48_S5000x48))
    (broadcastTo S5000x48 (shapeCast S1x48 x4 shapeCasts_S1x48_S1x48) broadcasts_S1x48_S5000x48)

/-- The body's payload is these terms composed. -/
theorem pay_eq (x2 : Vec Ideal S5000x1 .f32) (x0 x1 : Vec Ideal S5000x48 .f32) (x3 x4 : Vec Ideal S1x48 .f32) :
    k1_pay1 x2 x0 x1 x3 x4 = normTerm (rowTerm x2 x0 x1) x3 x4 := rfl

/-- The centred block at an index: the entry minus its row's sum over 48. -/
theorem centredTerm_apply (v : FVec Ideal S5000x48 .f32) (p : Fin 5000) (k : Fin 48) :
    centredTerm v (ix2 p k) = v (ix2 p k) - Ideal.div (∑ j : Fin 48, v (ix2 p j)) (Ideal.ofBits .f32 0x42400000#32) := by
  show v (ix2 p k) - broadcastTo S5000x48 (meanCol v) broadcasts_S5000x1_S5000x48 (ix2 p k) = _
  refine congrArg (fun z => v (ix2 p k) - z) ?_
  exact (Cert.Lib.ColumnBroadcast.broadcastTo_a1_ab_apply _ broadcasts_S5000x1_S5000x48 p k).trans
    (mean_apply v reduces_S5000x48_S5000 (.inl rfl) rfl shapeCasts_S5000_S5000x1 p (0 : Fin 1))

/-- The rest of the body at an index: the normalised row of the block's row p at lane q. -/
theorem normTerm_apply (v : FVec Ideal S5000x48 .f32) (x3 x4 : Vec Ideal S1x48 .f32) (p : Fin 5000) (q : Fin 48) :
    normTerm v x3 x4 (ix2 p q)
      = lnRow (fun k => v (ix2 p k)) (fun k => x3 (ix2 (0 : Fin 1) k)) (fun k => x4 (ix2 (0 : Fin 1) k)) q := by
  show centredTerm v (ix2 p q)
        * broadcastTo S5000x48 (rsqrt (addf (meanCol (mulf (centredTerm v) (centredTerm v)))
            (broadcast S5000x1 (Scalar.ofBits (F := Ideal) .f32 0x3727C5AC#32)))) broadcasts_S5000x1_S5000x48 (ix2 p q)
        * broadcastTo S5000x48 (shapeCast S1x48 x3 shapeCasts_S1x48_S1x48) broadcasts_S1x48_S5000x48 (ix2 p q)
      + broadcastTo S5000x48 (shapeCast S1x48 x4 shapeCasts_S1x48_S1x48) broadcasts_S1x48_S5000x48 (ix2 p q) = _
  unfold lnRow
  refine congrArg₂ (· + ·) (congrArg₂ (· * ·) (congrArg₂ (· * ·) (centredTerm_apply v p q) ?_) ?_) ?_
  · refine (Cert.Lib.ColumnBroadcast.broadcastTo_a1_ab_apply _ broadcasts_S5000x1_S5000x48 p q).trans ?_
    show Ideal.rsqrt (meanCol (mulf (centredTerm v) (centredTerm v)) (ix2 p (0 : Fin 1)) + Ideal.ofBits .f32 0x3727C5AC#32) = _
    refine congrArg (fun z => Ideal.rsqrt (z + Ideal.ofBits .f32 0x3727C5AC#32)) ?_
    refine (mean_apply (mulf (centredTerm v) (centredTerm v)) reduces_S5000x48_S5000 (.inl rfl) rfl shapeCasts_S5000_S5000x1 p (0 : Fin 1)).trans ?_
    refine congrArg (fun z => Ideal.div z (Ideal.ofBits .f32 0x42400000#32)) (Finset.sum_congr rfl fun k _ => ?_)
    show centredTerm v (ix2 p k) * centredTerm v (ix2 p k) = _
    rw [centredTerm_apply v p k]
  · exact (broadcastTo_1b_ab_apply _ broadcasts_S1x48_S5000x48 p q).trans (congrFun (shapeCast_self x3 shapeCasts_S1x48_S1x48) _)
  · exact (broadcastTo_1b_ab_apply _ broadcasts_S1x48_S5000x48 p q).trans (congrFun (shapeCast_self x4 shapeCasts_S1x48_S1x48) _)

/-- THE PAYLOAD AT AN INDEX: the normalised row of the block's row p, at lane q. -/
theorem pay_apply (x2 : Vec Ideal S5000x1 .f32) (x0 x1 : Vec Ideal S5000x48 .f32) (x3 x4 : Vec Ideal S1x48 .f32)
    (p : Fin 5000) (q : Fin 48) :
    k1_pay1 x2 x0 x1 x3 x4 (ix2 p q)
      = lnRow (blockRow x2 x0 x1 p) (fun k => x3 (ix2 (0 : Fin 1) k)) (fun k => x4 (ix2 (0 : Fin 1) k)) q := by
  rw [pay_eq]
  refine (normTerm_apply (rowTerm x2 x0 x1) x3 x4 p q).trans ?_
  refine congrArg (fun x => lnRow x (fun k => x3 (ix2 (0 : Fin 1) k)) (fun k => x4 (ix2 (0 : Fin 1) k)) q) (funext fun k => ?_)
  exact row_apply x2 x0 x1 shapeCasts_S5000x1_S5000x1 shapeCasts_S5000x48_S5000x48 broadcasts_S5000x1_S5000x48 p k

/-- The normalised row depends on its three rows lane by lane. -/
theorem lnRow_congr {x x' g g' d d' : Fin 48 → EReal} (hx : ∀ k, x k = x' k) (hg : ∀ k, g k = g' k)
    (hd : ∀ k, d k = d' k) (q : Fin 48) : lnRow x g d q = lnRow x' g' d' q := by
  rw [show x = x' from funext hx, show g = g' from funext hg, show d = d' from funext hd]

end Cert.KernelIdeal.Region1

end
-- ==== Proof.Region1.lean ====
/-
  The second call as one array. The call runs over 20 points; point t holds rows 5000·t … 5000·t + 4999 of the three
  row arrays and of the result, and the whole of the two one-row arrays. At each point the body leaves, at row p and
  lane q of its block, the normalised row of the block's row p at lane q; a block's row p is row 5000·t + p of the
  arrays, so what point t writes back is block t of the layer norm of the whole arrays. The 20 blocks tile the result
  array (row r lies in the block of point r / 5000), so the array ends holding that layer norm.
-/
import proofs.«159755_j66537633349676_1_alg».proof.Proof.Gen.KernelIdeal.Frame
import proofs.«159755_j66537633349676_1_alg».proof.Proof.Spec
import proofs.«159755_j66537633349676_1_alg».proof.Proof.Region1Payload
import Idealize.ShloMosaic.Lib.ValueIdx
import Idealize.ShloMosaic.Lib.Pipeline.Value

noncomputable section

namespace Cert.KernelIdeal.Region1

open Cert.KernelIdeal Cert.KernelIdeal.Gen Idealize.ShloMosaic Idealize.ShloMosaic.ValueIdx Idealize.ShloMosaic.Pipeline
open Idealize.ShloMosaic.TcCoe Idealize.SL.Sem

section Blocks

variable (V : (c : Dev nD) → (b : Ref sig .tc) → Buf (Elt Ideal) ((c : Thread nD τ).loc b))

/-- The zero offsets of a whole-block access, spelt as the constant function. -/
theorem zero_offsets : (![0, 0] : Fin 2 → Nat) = fun _ => 0 := funext fun a => by fin_cases a <;> rfl

/-- The printed index maps, decided over the 20 points: the three row windows and the output sit at block (t, 0), the two
    one-row windows at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 20 points. -/
theorem points : cfg1.N = 20 := N_1

/-- Row p of point t's block is row 5000 · t + p of the array. -/
def rowOf (t : Fin cfg1.N) (p : Fin 5000) : Fin 100000 :=
  ⟨5000 * t.val + p.val, by have h := t.isLt; have hN := points; have := p.isLt; omega⟩

/-- Window 0's block at point t is rows 5000·t … 5000·t + 4999 of its array. -/
theorem block0_apply (c : Dev nD) (t : Fin cfg1.N) (p : Fin 5000) (k : Fin 48) :
    (iblk1 V c 0 t : Vec Ideal S5000x48 .f32) (ix2 p k) = (V c main_arg0 : S100000x48.Idx → EReal) (ix2 (rowOf t p) k) := by
  obtain ⟨e0, e1, -⟩ := index_facts t
  unfold iblk1
  rw [View.read_apply]
  show V c main_arg0 _ = V c main_arg0 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 48 + 1 * k.val = k.val; rw [e1]; omega

/-- Window 1's block at point t is the same rows of its array. -/
theorem block1_apply (c : Dev nD) (t : Fin cfg1.N) (p : Fin 5000) (k : Fin 48) :
    (iblk1 V c 1 t : Vec Ideal S5000x48 .f32) (ix2 p k) = (V c main_v38 : S100000x48.Idx → EReal) (ix2 (rowOf t p) k) := by
  obtain ⟨-, -, e0, e1, -⟩ := index_facts t
  unfold iblk1
  rw [View.read_apply]
  show V c main_v38 _ = V c main_v38 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 48 + 1 * k.val = k.val; rw [e1]; omega

/-- Window 2's block at point t is the same rows of its one-column array. -/
theorem block2_apply (c : Dev nD) (t : Fin cfg1.N) (p : Fin 5000) :
    (iblk1 V c 2 t : Vec Ideal S5000x1 .f32) (ix2 p (0 : Fin 1)) = (V c main_v39 : S100000x1.Idx → EReal) (ix2 (rowOf t p) (0 : Fin 1)) := by
  obtain ⟨-, -, -, -, e0, e1, -⟩ := index_facts t
  unfold iblk1
  rw [View.read_apply]
  show V c main_v39 _ = V c main_v39 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]

/-- Window 3's block is its whole one-row array at every point. -/
theorem block3_apply (c : Dev nD) (t : Fin cfg1.N) (k : Fin 48) :
    (iblk1 V c 3 t : Vec Ideal S1x48 .f32) (ix2 (0 : Fin 1) k) = (V c main_v40 : S1x48.Idx → EReal) (ix2 (0 : Fin 1) k) := by
  obtain ⟨-, -, -, -, -, -, e0, e1, -⟩ := index_facts t
  unfold iblk1
  rw [View.read_apply]
  show V c main_v40 _ = V c main_v40 _
  congr 1
  funext a
  apply Fin.ext
  match a with
  | ⟨0, _⟩ => show win1_3.index t (0 : Fin 2) * 1 + 1 * 0 = 0; rw [e0]
  | ⟨1, _⟩ => show win1_3.index t (1 : Fin 2) * 48 + 1 * k.val = k.val; rw [e1]; omega

/-- Window 4's block is its whole one-row array at every point. -/
theorem block4_apply (c : Dev nD) (t : Fin cfg1.N) (k : Fin 48) :
    (iblk1 V c 4 t : Vec Ideal S1x48 .f32) (ix2 (0 : Fin 1) k) = (V c main_v41 : S1x48.Idx → EReal) (ix2 (0 : Fin 1) k) := by
  obtain ⟨-, -, -, -, -, -, -, -, e0, e1, -⟩ := index_facts t
  unfold iblk1
  rw [View.read_apply]
  show V c main_v41 _ = V c main_v41 _
  congr 1
  funext a
  apply Fin.ext
  match a with
  | ⟨0, _⟩ => show win1_4.index t (0 : Fin 2) * 1 + 1 * 0 = 0; rw [e0]
  | ⟨1, _⟩ => show win1_4.index t (1 : Fin 2) * 48 + 1 * k.val = k.val; rw [e1]; omega

/-- The output window's block at point t lies on the same rows of the result array. -/
theorem out_emb (t : Fin cfg1.N) (p : Fin 5000) (q : Fin 48) :
    (((cfg1.win 5).blk t).view.emb (ix2 p q : S5000x48.Idx) : S100000x48.Idx) = ix2 (rowOf t p) q := by
  obtain ⟨-, -, -, -, -, -, -, -, -, -, e0, e1⟩ := index_facts t
  funext a
  apply Fin.ext
  match a with
  | ⟨0, _⟩ => show win1_5.index t (0 : Fin 2) * 5000 + 1 * p.val = 5000 * t.val + p.val; rw [e0]; omega
  | ⟨1, _⟩ => show win1_5.index t (1 : Fin 2) * 48 + 1 * q.val = q.val; rw [e1]; omega

/-- The layer's result array as one function of the region's entry contents. -/
abbrev result (c : Dev nD) : S100000x48.Idx → EReal :=
  Cert.Spec.lnorm (V c main_arg0) (V c main_v38) (fun r => Cert.Spec.scale (V c main_v39 (ix2 r (0 : Fin 1))))
    (fun q => V c main_v40 (ix2 (0 : Fin 1) q)) (fun q => V c main_v41 (ix2 (0 : Fin 1) q))

set_option maxHeartbeats 400000 in
/-- WHAT POINT t WRITES BACK is block t of the result array. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S5000x48) zero_offsets, View.ld_unit_zero (S := S5000x1) zero_offsets,
    View.ld_unit_zero (S := S1x48) zero_offsets]
  funext j
  obtain ⟨p, q, rfl⟩ : ∃ (p : Fin 5000) (q : Fin 48), (j : S5000x48.Idx) = ix2 p q := ⟨j 0, j 1, eq_ix2 j⟩
  show k1_pay1 (iblk1 V c 2 t) (iblk1 V c 0 t) (iblk1 V c 1 t) (iblk1 V c 3 t) (iblk1 V c 4 t) (ix2 p q)
      = result V c (((cfg1.win 5).blk t).view.emb (ix2 p q))
  refine (pay_apply (iblk1 V c 2 t) (iblk1 V c 0 t) (iblk1 V c 1 t) (iblk1 V c 3 t) (iblk1 V c 4 t) p q).trans ?_
  refine Eq.trans ?_ (congrArg (result V c) (out_emb t p q)).symm
  refine Eq.trans ?_ (lnorm_apply _ _ _ _ _ (rowOf t p) q).symm
  refine lnRow_congr (fun k => ?_) (fun k => block3_apply V c t k) (fun k => block4_apply V c t k) q
  exact congrArg₂ (fun a b : EReal => a + b) (block0_apply V c t p k)
    (congrArg₂ (fun a b : EReal => a * b) (block1_apply V c t p k) (congrArg Cert.Spec.scale (block2_apply V c t p)))

/-- An index of the result array is in point t's block iff each coordinate is in the block's range on its axis. -/
theorem mem_block (t : Fin cfg1.N) (i : S100000x48.Idx) :
    i ∈ ((cfg1.win 5).blk t).view.set ↔ ∀ a : Fin 2, win1_5.index t a * S5000x48.size a ≤ (i a).val
      ∧ (i a).val < win1_5.index t a * S5000x48.size a + S5000x48.size a := by
  show i ∈ ((View.whole main_v42).slice (win1_5.rect t)).set ↔ _
  rw [View.set_slice_whole, Rect.mem_set_unit]
  exact Iff.rfl

/-- Every index of the result array is in the block of the point its row divided by 5000 names. -/
theorem cover (i : S100000x48.Idx) :
    ∃ t : Fin cfg1.N, (cfg1.win 5).flush t = true ∧ i ∈ ((cfg1.win 5).blk t).view.set := by
  have hi0 : (i 0).val < 100000 := (i 0).isLt
  have hi1 : (i 1).val < 48 := (i 1).isLt
  obtain ⟨t, ht⟩ : ∃ t : Fin cfg1.N, t.val = (i 0).val / 5000 :=
    ⟨⟨(i 0).val / 5000, by have hN := points; omega⟩, rfl⟩
  obtain ⟨-, -, -, -, -, -, -, -, -, -, e0, e1⟩ := index_facts t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 48 ≤ (i 1).val ∧ (i 1).val < win1_5.index t (1 : Fin 2) * 48 + 48
    rw [e1]; omega

end Blocks

/-- THE RESULT ARRAY after the second call: the layer norm of the region's entry contents, as one array. -/
theorem arr_eq (V : (c : Dev nD) → (b : Ref sig .tc) → Buf (Elt Ideal) ((c : Thread nD τ).loc b)) (c : Dev nD) :
    (dat1 (F := Ideal) V c).arrAt 5 cfg1.N
      = Cert.Spec.lnorm (V c main_arg0) (V c main_v38) (fun r => Cert.Spec.scale (V c main_v39 (ix2 r (0 : Fin 1))))
          (fun q => V c main_v40 (ix2 (0 : Fin 1) q)) (fun q => V c main_v41 (ix2 (0 : Fin 1) q)) :=
  (dat1 V c).arrAt_eq_of_cover 5 (result V c) (fun t _ => flushed_eq V c t) cover

end Cert.KernelIdeal.Region1

end
-- ==== Proof.RefSide.lean ====
/-
  The reference program computes the specification, stage by stage.

  Per triple t and output lane o: the contraction of the 96 joined columns (the centre row, then the message) with row o of
  Wu is the sum over the first 48 columns plus the sum over the last 48, that is the specification's pre-activation; the
  leaky rectifier of it times the triple's weight is the specification's update.

  Per node r and lane q: the aggregated entry divided by the root of the clamped count is the entry times the node's
  scale; the row mean and the mean square deviation are sums from a zero initial value over the 48 lanes divided by 48;
  the centred row times the reciprocal root of the mean square deviation plus 1e-5, times gamma, plus beta, is the
  specification's layer result.
-/
import proofs.«159755_j66537633349676_1_alg».proof.Proof.Gen.ReferenceIdeal.Read
import proofs.«159755_j66537633349676_1_alg».proof.Proof.Spec

noncomputable section

namespace Cert.RefSide

open Cert.ReferenceIdeal Cert.ReferenceIdeal.Gen Cert.ReferenceIdeal.Read Idealize.ShloMosaic Idealize.ShloMosaic.ValueIdx

/-- The weight stage at triple t is the specification's weight of the two distances. -/
theorem weight_at (x2 x3 : (⟨S2000000, .f32⟩ : BufTy).Contents (Elt Ideal)) (t : Fin 2000000) :
    val_main_v15 (F := Ideal) x2 x3 (ix1 t) = Cert.Spec.weight (x2 (ix1 t)) (x3 (ix1 t)) := by
  rw [val_main_v15_apply, val_main_v14_apply, val_main_cst_1_apply, val_main_v13_apply, val_main_v12_apply,
    val_main_cst_0_apply, val_main_v11_apply, val_main_v7_apply, val_main_v6_apply, val_main_v10_apply,
    val_main_v8_apply, val_main_v9_apply, val_main_cst_apply]
  rfl

/-- The weight broadcast along the 48 lanes reads the weight of the row's triple. -/
theorem weight_bcast_at (x2 x3 : (⟨S2000000, .f32⟩ : BufTy).Contents (Elt Ideal)) (t : Fin 2000000) (o : Fin 48) :
    val_main_v47 (F := Ideal) x2 x3 (ix2 t o) = Cert.Spec.weight (x2 (ix1 t)) (x3 (ix1 t)) := by
  have e : idx_main_v46 (idx_main_v47 (ix2 t o)) = ix1 t :=
    funext fun a => Fin.ext (by match a with | ⟨0, _⟩ => rfl)
  rw [val_main_v47_apply, val_main_v46_apply, e]
  exact weight_at x2 x3 t

/-- The concatenation at a column below 48 reads the centre rows. -/
theorem cat_left (x0 : (⟨S100000x48, .f32⟩ : BufTy).Contents (Elt Ideal)) (x1 : (⟨S2000000x3, .i32⟩ : BufTy).Contents (Elt Ideal))
    (x4 : (⟨S48x48, .f32⟩ : BufTy).Contents (Elt Ideal)) (t : Fin 2000000) (c : Fin 48) :
    val_main_v39 (F := Ideal) x0 x1 x4 (ix2 t (⟨c.val, by have := c.isLt; omega⟩ : Fin 96))
      = val_main_v38 (F := Ideal) x0 x1 (ix2 t c) := by
  unfold val_main_v39
  exact concatenate_pair_apply_left (t := S2000000x96) (s₁ := S2000000x48) (s₂ := S2000000x48) 1
    (val_main_v38 (F := Ideal) x0 x1) (val_main_v31 (F := Ideal) x0 x1 x4)
    Facts₀.concatenates_S2000000x48_S2000000x48_S2000000x96_d1
    (ix2 t (⟨c.val, by have := c.isLt; omega⟩ : Fin 96)) rfl (ix2 t c) (fun b => by
    match b with
    | ⟨0, _⟩ => rfl
    | ⟨1, _⟩ => rfl)

/-- The concatenation at column 48 + c reads the message at lane c. -/
theorem cat_right (x0 : (⟨S100000x48, .f32⟩ : BufTy).Contents (Elt Ideal)) (x1 : (⟨S2000000x3, .i32⟩ : BufTy).Contents (Elt Ideal))
    (x4 : (⟨S48x48, .f32⟩ : BufTy).Contents (Elt Ideal)) (t : Fin 2000000) (c : Fin 48) :
    val_main_v39 (F := Ideal) x0 x1 x4 (ix2 t (⟨48 + c.val, by have := c.isLt; omega⟩ : Fin 96))
      = val_main_v31 (F := Ideal) x0 x1 x4 (ix2 t c) := by
  unfold val_main_v39
  exact concatenate_pair_apply_right (t := S2000000x96) (s₁ := S2000000x48) (s₂ := S2000000x48) 1
    (val_main_v38 (F := Ideal) x0 x1) (val_main_v31 (F := Ideal) x0 x1 x4)
    Facts₀.concatenates_S2000000x48_S2000000x48_S2000000x96_d1
    (ix2 t (⟨48 + c.val, by have := c.isLt; omega⟩ : Fin 96)) rfl rfl (ix2 t c)
    (fun b hb => by
      match b with
      | ⟨0, _⟩ => rfl
      | ⟨1, _⟩ => exact absurd rfl hb)
    (by show c.val + 48 = 48 + c.val; omega)

/-- The message stage at triple t, lane c, is the specification's message. -/
theorem msg_at (x0 : (⟨S100000x48, .f32⟩ : BufTy).Contents (Elt Ideal)) (x1 : (⟨S2000000x3, .i32⟩ : BufTy).Contents (Elt Ideal))
    (x4 : (⟨S48x48, .f32⟩ : BufTy).Contents (Elt Ideal)) (t : Fin 2000000) (c : Fin 48) :
    val_main_v31 (F := Ideal) x0 x1 x4 (ix2 t c)
      = Cert.Spec.msg (val_main_v22 (F := Ideal) x0 x1) (val_main_v29 (F := Ideal) x0 x1) x4 t c := by
  rw [val_main_v31_apply]
  unfold Cert.Spec.msg
  refine Finset.sum_congr rfl fun h _ => ?_
  have el : lidx_main_v31 (ix2 t c) h = ix2 t h := funext fun a => Fin.ext (by match a with | ⟨0, _⟩ => rfl | ⟨1, _⟩ => rfl)
  have er : ridx_main_v31 (ix2 t c) h = ix2 c h := funext fun a => Fin.ext (by match a with | ⟨0, _⟩ => rfl | ⟨1, _⟩ => rfl)
  rw [el, er]
  rfl

/-- The contraction over the 96 joined columns splits into the first 48 (centre row against the first half of Wu's row)
    and the last 48 (message against the second half). -/
theorem pre_at (x0 : (⟨S100000x48, .f32⟩ : BufTy).Contents (Elt Ideal)) (x1 : (⟨S2000000x3, .i32⟩ : BufTy).Contents (Elt Ideal))
    (x4 : (⟨S48x48, .f32⟩ : BufTy).Contents (Elt Ideal)) (x5 : (⟨S48x96, .f32⟩ : BufTy).Contents (Elt Ideal)) (t : Fin 2000000) (o : Fin 48) :
    val_main_v40 (F := Ideal) x0 x1 x4 x5 (ix2 t o)
      = Cert.Spec.pre (val_main_v22 (F := Ideal) x0 x1) (val_main_v29 (F := Ideal) x0 x1) (val_main_v38 (F := Ideal) x0 x1) x4
          (fun o c => x5 (ix2 o (⟨c.val, by have := c.isLt; omega⟩ : Fin 96)))
          (fun o c => x5 (ix2 o (⟨48 + c.val, by have := c.isLt; omega⟩ : Fin 96))) t o := by
  rw [val_main_v40_apply]
  refine (Fin.sum_univ_add (a := 48) (b := 48) (fun k : Fin (48 + 48) =>
    val_main_v39 (F := Ideal) x0 x1 x4 (lidx_main_v40 (ix2 t o) k) * x5 (ridx_main_v40 (ix2 t o) k))).trans ?_
  unfold Cert.Spec.pre
  refine congrArg₂ (· + ·) (Finset.sum_congr rfl fun c _ => ?_) (Finset.sum_congr rfl fun c _ => ?_)
  · have el : lidx_main_v40 (ix2 t o) (Fin.castAdd 48 c) = ix2 t (⟨c.val, by have := c.isLt; omega⟩ : Fin 96) := funext fun a => Fin.ext (by match a with | ⟨0, _⟩ => rfl | ⟨1, _⟩ => rfl)
    have er : ridx_main_v40 (ix2 t o) (Fin.castAdd 48 c) = ix2 o (⟨c.val, by have := c.isLt; omega⟩ : Fin 96) := funext fun a => Fin.ext (by match a with | ⟨0, _⟩ => rfl | ⟨1, _⟩ => rfl)
    rw [el, er, cat_left]
  · have el : lidx_main_v40 (ix2 t o) (Fin.natAdd 48 c) = ix2 t (⟨48 + c.val, by have := c.isLt; omega⟩ : Fin 96) := funext fun a => Fin.ext (by match a with | ⟨0, _⟩ => rfl | ⟨1, _⟩ => rfl)
    have er : ridx_main_v40 (ix2 t o) (Fin.natAdd 48 c) = ix2 o (⟨48 + c.val, by have := c.isLt; omega⟩ : Fin 96) := funext fun a => Fin.ext (by match a with | ⟨0, _⟩ => rfl | ⟨1, _⟩ => rfl)
    rw [el, er, cat_right, msg_at]

/-- The reference's per-triple update is the specification's. -/
theorem delta_eq (x0 : (⟨S100000x48, .f32⟩ : BufTy).Contents (Elt Ideal)) (x1 : (⟨S2000000x3, .i32⟩ : BufTy).Contents (Elt Ideal))
    (x2 x3 : (⟨S2000000, .f32⟩ : BufTy).Contents (Elt Ideal)) (x4 : (⟨S48x48, .f32⟩ : BufTy).Contents (Elt Ideal)) (x5 : (⟨S48x96, .f32⟩ : BufTy).Contents (Elt Ideal)) :
    val_main_v48 (F := Ideal) x0 x1 x2 x3 x4 x5
      = Cert.Spec.delta (val_main_v22 (F := Ideal) x0 x1) (val_main_v29 (F := Ideal) x0 x1) (val_main_v38 (F := Ideal) x0 x1)
          (fun t => Cert.Spec.weight (x2 (ix1 t)) (x3 (ix1 t))) x4
          (fun o c => x5 (ix2 o (⟨c.val, by have := c.isLt; omega⟩ : Fin 96)))
          (fun o c => x5 (ix2 o (⟨48 + c.val, by have := c.isLt; omega⟩ : Fin 96))) := by
  funext i
  obtain ⟨t, o, rfl⟩ : ∃ (t : Fin 2000000) (o : Fin 48), i = ix2 t o := ⟨i 0, i 1, eq_ix2 i⟩
  rw [val_main_v48_apply, val_main_v45_apply, val_main_v42_apply, val_main_v44_apply, val_main_v43_apply,
    val_main_cst_8_apply, val_main_v41_apply, val_main_cst_7_apply, pre_at, weight_bcast_at]
  rfl

/-- Node r's row before normalisation: the quotient by the root of the clamped count is the product with the scale. -/
theorem xrow_at (x0 : (⟨S100000x48, .f32⟩ : BufTy).Contents (Elt Ideal)) (x1 : (⟨S2000000x3, .i32⟩ : BufTy).Contents (Elt Ideal))
    (x2 x3 : (⟨S2000000, .f32⟩ : BufTy).Contents (Elt Ideal)) (x4 : (⟨S48x48, .f32⟩ : BufTy).Contents (Elt Ideal)) (x5 : (⟨S48x96, .f32⟩ : BufTy).Contents (Elt Ideal)) (r : Fin 100000) (q : Fin 48) :
    val_main_v62 (F := Ideal) x0 x1 x2 x3 x4 x5 (ix2 r q) = Cert.Spec.xrow x0 (val_main_v57 (F := Ideal) x0 x1 x2 x3 x4 x5) (fun r => Cert.Spec.scale (val_main_v52 (F := Ideal) x1 (ix1 r))) r q := by
  have e : idx_main_v59 (idx_main_v60 (ix2 r q)) = ix1 r := funext fun a => Fin.ext (by match a with | ⟨0, _⟩ => rfl)
  rw [val_main_v62_apply, val_main_v61_apply, val_main_v60_apply, val_main_v59_apply, e, val_main_v58_apply,
    val_main_v54_apply, val_main_v53_apply, val_main_cst_11_apply]
  unfold Cert.Spec.xrow
  simp only [Ideal.addf_def, Ideal.hostDivf_def, Ideal.hostUnary_sqrt_def, Ideal.maximumf_def, Ideal.ofBits_def]
  rw [Cert.Spec.div_sqrt_eq_mul_scale]

/-- The row mean: the sum from the zero initial value over the 48 lanes, divided by 48. -/
theorem mean_at (x0 : (⟨S100000x48, .f32⟩ : BufTy).Contents (Elt Ideal)) (x1 : (⟨S2000000x3, .i32⟩ : BufTy).Contents (Elt Ideal))
    (x2 x3 : (⟨S2000000, .f32⟩ : BufTy).Contents (Elt Ideal)) (x4 : (⟨S48x48, .f32⟩ : BufTy).Contents (Elt Ideal)) (x5 : (⟨S48x96, .f32⟩ : BufTy).Contents (Elt Ideal)) (r : Fin 100000) :
    val_main_v66 (F := Ideal) x0 x1 x2 x3 x4 x5 (ix2 r (⟨0, Nat.one_pos⟩ : Fin 1)) = Cert.Spec.mean x0 (val_main_v57 (F := Ideal) x0 x1 x2 x3 x4 x5) (fun r => Cert.Spec.scale (val_main_v52 (F := Ideal) x1 (ix1 r))) r := by
  have e : idx_main_v64 (ix2 r (⟨0, Nat.one_pos⟩ : Fin 1)) = ix1 r := funext fun a => Fin.ext (by match a with | ⟨0, _⟩ => rfl)
  rw [val_main_v66_apply, val_main_v64_apply, e, val_main_v63_apply, val_main_v65_apply, val_main_cst_14_apply,
    val_main_cst_13_apply]
  simp only [Ideal.hostDivf_def, Ideal.ofBits_def, Ideal.ofBits_zero_f32, zero_add]
  unfold Cert.Spec.mean
  refine congrArg (Ideal.div · _) (Finset.sum_congr rfl fun k _ => ?_)
  have ek : idx_main_v63 (ix1 r) k = ix2 r k := funext fun a => Fin.ext (by match a with | ⟨0, _⟩ => rfl | ⟨1, _⟩ => rfl)
  rw [ek]
  exact xrow_at x0 x1 x2 x3 x4 x5 r k

/-- The centred row, as the mean-square stage reads it. -/
theorem centred_at (x0 : (⟨S100000x48, .f32⟩ : BufTy).Contents (Elt Ideal)) (x1 : (⟨S2000000x3, .i32⟩ : BufTy).Contents (Elt Ideal))
    (x2 x3 : (⟨S2000000, .f32⟩ : BufTy).Contents (Elt Ideal)) (x4 : (⟨S48x48, .f32⟩ : BufTy).Contents (Elt Ideal)) (x5 : (⟨S48x96, .f32⟩ : BufTy).Contents (Elt Ideal)) (r : Fin 100000) (q : Fin 48) :
    val_main_v68 (F := Ideal) x0 x1 x2 x3 x4 x5 (ix2 r q) = Cert.Spec.centred x0 (val_main_v57 (F := Ideal) x0 x1 x2 x3 x4 x5) (fun r => Cert.Spec.scale (val_main_v52 (F := Ideal) x1 (ix1 r))) r q := by
  have e : idx_main_v67 (ix2 r q) = ix2 r (⟨0, Nat.one_pos⟩ : Fin 1) := funext fun a => Fin.ext (by match a with | ⟨0, _⟩ => rfl | ⟨1, _⟩ => rfl)
  rw [val_main_v68_apply, val_main_v67_apply, e, xrow_at, mean_at]
  rfl

/-- The centred row, as the output stage reads it. -/
theorem centred_out_at (x0 : (⟨S100000x48, .f32⟩ : BufTy).Contents (Elt Ideal)) (x1 : (⟨S2000000x3, .i32⟩ : BufTy).Contents (Elt Ideal))
    (x2 x3 : (⟨S2000000, .f32⟩ : BufTy).Contents (Elt Ideal)) (x4 : (⟨S48x48, .f32⟩ : BufTy).Contents (Elt Ideal)) (x5 : (⟨S48x96, .f32⟩ : BufTy).Contents (Elt Ideal)) (r : Fin 100000) (q : Fin 48) :
    val_main_v75 (F := Ideal) x0 x1 x2 x3 x4 x5 (ix2 r q) = Cert.Spec.centred x0 (val_main_v57 (F := Ideal) x0 x1 x2 x3 x4 x5) (fun r => Cert.Spec.scale (val_main_v52 (F := Ideal) x1 (ix1 r))) r q := by
  have e : idx_main_v74 (ix2 r q) = ix2 r (⟨0, Nat.one_pos⟩ : Fin 1) := funext fun a => Fin.ext (by match a with | ⟨0, _⟩ => rfl | ⟨1, _⟩ => rfl)
  rw [val_main_v75_apply, val_main_v74_apply, e, xrow_at, mean_at]
  rfl

/-- The row's mean square deviation. -/
theorem variance_at (x0 : (⟨S100000x48, .f32⟩ : BufTy).Contents (Elt Ideal)) (x1 : (⟨S2000000x3, .i32⟩ : BufTy).Contents (Elt Ideal))
    (x2 x3 : (⟨S2000000, .f32⟩ : BufTy).Contents (Elt Ideal)) (x4 : (⟨S48x48, .f32⟩ : BufTy).Contents (Elt Ideal)) (x5 : (⟨S48x96, .f32⟩ : BufTy).Contents (Elt Ideal)) (r : Fin 100000) :
    val_main_v73 (F := Ideal) x0 x1 x2 x3 x4 x5 (ix2 r (⟨0, Nat.one_pos⟩ : Fin 1)) = Cert.Spec.variance x0 (val_main_v57 (F := Ideal) x0 x1 x2 x3 x4 x5) (fun r => Cert.Spec.scale (val_main_v52 (F := Ideal) x1 (ix1 r))) r := by
  have e : idx_main_v71 (ix2 r (⟨0, Nat.one_pos⟩ : Fin 1)) = ix1 r := funext fun a => Fin.ext (by match a with | ⟨0, _⟩ => rfl)
  rw [val_main_v73_apply, val_main_v71_apply, e, val_main_v70_apply, val_main_v72_apply, val_main_cst_16_apply,
    val_main_cst_15_apply]
  simp only [Ideal.hostDivf_def, Ideal.ofBits_def, Ideal.ofBits_zero_f32, zero_add]
  unfold Cert.Spec.variance
  refine congrArg (Ideal.div · _) (Finset.sum_congr rfl fun k _ => ?_)
  have ek : idx_main_v70 (ix1 r) k = ix2 r k := funext fun a => Fin.ext (by match a with | ⟨0, _⟩ => rfl | ⟨1, _⟩ => rfl)
  rw [ek, val_main_v69_apply, centred_at]
  rfl

/-- The reference's layer norm of h + agg / √(max count 1) is the specification's. -/
theorem lnorm_eq (x0 : (⟨S100000x48, .f32⟩ : BufTy).Contents (Elt Ideal)) (x1 : (⟨S2000000x3, .i32⟩ : BufTy).Contents (Elt Ideal))
    (x2 x3 : (⟨S2000000, .f32⟩ : BufTy).Contents (Elt Ideal)) (x4 : (⟨S48x48, .f32⟩ : BufTy).Contents (Elt Ideal)) (x5 : (⟨S48x96, .f32⟩ : BufTy).Contents (Elt Ideal)) (x6 x7 : (⟨S48, .f32⟩ : BufTy).Contents (Elt Ideal)) :
    val_main_v86 (F := Ideal) x0 x1 x2 x3 x4 x5 x6 x7
      = Cert.Spec.lnorm x0 (val_main_v57 (F := Ideal) x0 x1 x2 x3 x4 x5) (fun r => Cert.Spec.scale (val_main_v52 (F := Ideal) x1 (ix1 r))) (fun q => x6 (ix1 q)) (fun q => x7 (ix1 q)) := by
  funext i
  obtain ⟨r, q, rfl⟩ : ∃ (r : Fin 100000) (q : Fin 48), i = ix2 r q := ⟨i 0, i 1, eq_ix2 i⟩
  have e7 : idx_main_v84 (idx_main_v85 (ix2 r q)) = ix1 q := funext fun a => Fin.ext (by match a with | ⟨0, _⟩ => rfl)
  have e6 : idx_main_v81 (idx_main_v82 (ix2 r q)) = ix1 q := funext fun a => Fin.ext (by match a with | ⟨0, _⟩ => rfl)
  have e9 : idx_main_v79 (ix2 r q) = ix2 r (⟨0, Nat.one_pos⟩ : Fin 1) := funext fun a => Fin.ext (by match a with | ⟨0, _⟩ => rfl | ⟨1, _⟩ => rfl)
  rw [val_main_v86_apply, val_main_v85_apply, val_main_v84_apply, e7, val_main_v83_apply, val_main_v82_apply,
    val_main_v81_apply, e6, val_main_v80_apply, val_main_v79_apply, e9, val_main_v78_apply, val_main_v77_apply,
    val_main_v76_apply, val_main_cst_17_apply, variance_at, centred_out_at]
  rfl

end Cert.RefSide

end
-- ==== Proof.Bridge.lean ====
/-
  The kernel's result is the reference's, as functions of the launch arguments.

  The first call's result array is the per-triple update of the arrays it finds; those arrays are the reference's
  gathered rows, the distances reshaped to columns (column entry t is flat entry t), W3, and the two halves of Wu
  (entry (o, k) of a half is Wu at (o, k) or (o, 48 + k)): so it is the reference's update stage. The aggregate the
  second call finds is that array scatter-added by the centre column, the reference's aggregate stage; the count
  column's entry r is the reference's count at r; gamma and beta as one-row arrays read their entry q. The second
  call's result array is the layer norm of these, which is the reference's last stage.
-/
import proofs.«159755_j66537633349676_1_alg».proof.Proof.HostGlue
import proofs.«159755_j66537633349676_1_alg».proof.Proof.Region0
import proofs.«159755_j66537633349676_1_alg».proof.Proof.Region1
import proofs.«159755_j66537633349676_1_alg».proof.Proof.RefSide
import proofs.«159755_j66537633349676_1_alg».proof.Proof.Spec
import proofs.«159755_j66537633349676_1_alg».proof.Proof.LibColumnCast
import Idealize.ShloMosaic.Lib.Pipeline.Value
import Idealize.ShloMosaic.Lib.ValueIdx

set_option maxRecDepth 16384

noncomputable section

namespace Cert.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- A column of the first distances read at row t is the flat entry t. -/
theorem col27 (t : Fin 2000000) : V1 m ρ c main_v27 (ix2 t (0 : Fin 1)) = m ((c : Thread nD τ).loc main_arg2) (ix1 t) := by
  show W1 m ρ c (Proc.devRef .tc main_v27) (ix2 t (0 : Fin 1)) = _
  rw [Cert.KernelIdeal.Glue.w1_v27 m ρ c]
  exact Cert.Lib.ColumnCast.shapeCast_a_a1_apply _ _ t 0

/-- The same for the second distances. -/
theorem col28 (t : Fin 2000000) : V1 m ρ c main_v28 (ix2 t (0 : Fin 1)) = m ((c : Thread nD τ).loc main_arg3) (ix1 t) := by
  show W1 m ρ c (Proc.devRef .tc main_v28) (ix2 t (0 : Fin 1)) = _
  rw [Cert.KernelIdeal.Glue.w1_v28 m ρ c]
  exact Cert.Lib.ColumnCast.shapeCast_a_a1_apply _ _ t 0

/-- The first half of Wu at (o, k) is Wu at (o, k). -/
theorem half29 (o k : Fin 48) : V1 m ρ c main_v29 (ix2 o k)
    = m ((c : Thread nD τ).loc main_arg5) (ix2 o (⟨k.val, by have := k.isLt; omega⟩ : Fin 96)) := by
  show W1 m ρ c (Proc.devRef .tc main_v29) (ix2 o k) = _
  rw [Cert.KernelIdeal.Glue.w1_v29 m ρ c]
  refine extractStridedSlice_apply ![0, 0] _ slices_S48x96_S48x48_0_0 (ix2 o k) (ix2 o (⟨k.val, by have := k.isLt; omega⟩ : Fin 96)) fun a => ?_
  match a with
  | ⟨0, _⟩ => exact (Nat.zero_add _).symm
  | ⟨1, _⟩ => exact (Nat.zero_add _).symm

/-- The second half of Wu at (o, k) is Wu at (o, 48 + k). -/
theorem half30 (o k : Fin 48) : V1 m ρ c main_v30 (ix2 o k)
    = m ((c : Thread nD τ).loc main_arg5) (ix2 o (⟨48 + k.val, by have := k.isLt; omega⟩ : Fin 96)) := by
  show W1 m ρ c (Proc.devRef .tc main_v30) (ix2 o k) = _
  rw [Cert.KernelIdeal.Glue.w1_v30 m ρ c]
  refine extractStridedSlice_apply ![0, 48] _ slices_S48x96_S48x48_0_48 (ix2 o k) (ix2 o (⟨48 + k.val, by have := k.isLt; omega⟩ : Fin 96)) fun a => ?_
  match a with
  | ⟨0, _⟩ => exact (Nat.zero_add _).symm
  | ⟨1, _⟩ => rfl

/-- The first call's result array is the reference's per-triple update, as functions of the launch arguments. -/
theorem delta_bridge : W2 m ρ c (Proc.devRef .tc main_v31)
    = Cert.ReferenceIdeal.Read.val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (W2_arr m ρ c 8).trans ?_
  rw [Cert.KernelIdeal.Region0.arr_eq (V1 m ρ) c, Cert.RefSide.delta_eq]
  have e12 : V1 m ρ c main_v12 = _ := Cert.KernelIdeal.Glue.w1_v12 m ρ c
  have e19 : V1 m ρ c main_v19 = _ := Cert.KernelIdeal.Glue.w1_v19 m ρ c
  have e26 : V1 m ρ c main_v26 = _ := Cert.KernelIdeal.Glue.w1_v26 m ρ c
  have e4 : V1 m ρ c main_arg4 = _ := Cert.KernelIdeal.Glue.w1_arg4 m ρ c
  rw [e12, e19, e26, e4]
  simp only [col27 m ρ c, col28 m ρ c, half29 m ρ c, half30 m ρ c]

/-- A count read in the column is the reference's count stage at that node. -/
theorem count39 (r : Fin 100000) : V3 m ρ c main_v39 (ix2 r (0 : Fin 1))
    = Cert.ReferenceIdeal.Read.val_main_v52 (F := Ideal) (m ((c : Thread nD τ).loc main_arg1)) (ix1 r) := by
  show W3 m ρ c (Proc.devRef .tc main_v39) (ix2 r (0 : Fin 1)) = _
  rw [Cert.KernelIdeal.Glue.w3_v39 m ρ c, Cert.KernelIdeal.Glue.w2_v1 m ρ c]
  refine (Cert.Lib.ColumnCast.shapeCast_a_a1_apply _ _ r 0).trans ?_
  rfl

/-- gamma read in its row. -/
theorem row40 (q : Fin 48) : V3 m ρ c main_v40 (ix2 (0 : Fin 1) q) = m ((c : Thread nD τ).loc main_arg6) (ix1 q) := by
  show W3 m ρ c (Proc.devRef .tc main_v40) (ix2 (0 : Fin 1) q) = _
  rw [Cert.KernelIdeal.Glue.w3_v40 m ρ c, Cert.KernelIdeal.Glue.w2_arg6 m ρ c]
  exact shapeCast_apply _ shapeCasts_S48_S1x48 (ix2 (0 : Fin 1) q) (ix1 q) (by
    rw [Shape.rowMajor_val_two, Shape.rowMajor_val_one]
    show q.val = 0 * 48 + q.val
    omega)

/-- beta read in its row. -/
theorem row41 (q : Fin 48) : V3 m ρ c main_v41 (ix2 (0 : Fin 1) q) = m ((c : Thread nD τ).loc main_arg7) (ix1 q) := by
  show W3 m ρ c (Proc.devRef .tc main_v41) (ix2 (0 : Fin 1) q) = _
  rw [Cert.KernelIdeal.Glue.w3_v41 m ρ c, Cert.KernelIdeal.Glue.w2_arg7 m ρ c]
  exact shapeCast_apply _ shapeCasts_S48_S1x48 (ix2 (0 : Fin 1) q) (ix1 q) (by
    rw [Shape.rowMajor_val_two, Shape.rowMajor_val_one]
    show q.val = 0 * 48 + q.val
    omega)

/-- The aggregated array the second call finds is the reference's aggregate stage. -/
theorem agg38 : V3 m ρ c main_v38
    = Cert.ReferenceIdeal.Read.val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  show W3 m ρ c (Proc.devRef .tc main_v38) = _
  rw [Cert.KernelIdeal.Glue.w3_v38 m ρ c, Cert.KernelIdeal.Glue.w2_v1 m ρ c, delta_bridge m ρ c]
  rfl

/-- h as the second call finds it. -/
theorem h0 : V3 m ρ c main_arg0 = m ((c : Thread nD τ).loc main_arg0) :=
  (Cert.KernelIdeal.Glue.w3_arg0 m ρ c).trans (Cert.KernelIdeal.Glue.w2_arg0 m ρ c)

/-- THE KERNEL'S RESULT is the reference's result stage of the launch arguments. -/
theorem result_eq : W4 m ρ c (Proc.devRef .tc main_v42)
    = Cert.ReferenceIdeal.Read.val_main_v86 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ?_
  rw [Cert.KernelIdeal.Region1.arr_eq (V3 m ρ) c, Cert.RefSide.lnorm_eq, h0 m ρ c, agg38 m ρ c]
  simp only [count39 m ρ c, row40 m ρ c, row41 m ρ c]

end Cert.Bridge

end
-- ==== Proof.lean ====
/-
  The certificate of the three-body message-passing layer: for each of 2,000,000 triples (centre, first neighbour,
  second neighbour) the rows of h at the two neighbours are added and contracted with W3, joined with the centre's row
  and contracted with Wu, passed through a leaky rectifier and weighted by the triple's distance asymmetry; the
  updates are summed per centre node, divided by the root of the node's triple count (at least 1), added to h and
  layer-normalised over the 48 lanes.

  The kernel computes the updates in one pallas_call over 500 blocks of 4000 triples (Wu split into its two halves,
  so the joined row is never formed) and the normalisation in a second one over 20 blocks of 5000 nodes, multiplying
  by the count's inverse root; the reference does both on whole arrays with jnp, dividing by the root. Over the
  extended reals the two are one function of the arguments: a contraction over the joined 96 lanes is the sum of the
  contractions over its two halves, and for a count x ≥ 1 (also +∞) a · x^(-1/2) = a / √x. The gathers and the
  scatter-adds are the same host operations of the same index columns in both programs and are never opened.
  No law used needs finite inputs, so the precondition is not opened.
-/
import proofs.«159755_j66537633349676_1_alg».proof.Defs
import proofs.«159755_j66537633349676_1_alg».proof.Proof.Gen.Kernel
import proofs.«159755_j66537633349676_1_alg».proof.Proof.Gen.Kernel.Skeleton
import proofs.«159755_j66537633349676_1_alg».proof.Proof.Gen.Kernel.Launch
import proofs.«159755_j66537633349676_1_alg».proof.Proof.Gen.Kernel.Points
import proofs.«159755_j66537633349676_1_alg».proof.Proof.Gen.Kernel.Frame
import proofs.«159755_j66537633349676_1_alg».proof.Proof.Gen.KernelIdeal
import proofs.«159755_j66537633349676_1_alg».proof.Proof.Gen.KernelIdeal.Skeleton
import proofs.«159755_j66537633349676_1_alg».proof.Proof.Gen.KernelIdeal.Launch
import proofs.«159755_j66537633349676_1_alg».proof.Proof.Gen.KernelIdeal.Points
import proofs.«159755_j66537633349676_1_alg».proof.Proof.Gen.KernelIdeal.Frame
import proofs.«159755_j66537633349676_1_alg».proof.Proof.Gen.ReferenceIdeal
import proofs.«159755_j66537633349676_1_alg».proof.Proof.Gen.ReferenceIdeal.Run
import proofs.«159755_j66537633349676_1_alg».proof.Proof.Gen.ReferenceIdeal.Read
import proofs.«159755_j66537633349676_1_alg».proof.Proof.Gen.Pre_finite_inputs
import proofs.«159755_j66537633349676_1_alg».proof.Proof.KernelRun
import proofs.«159755_j66537633349676_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run to the end, the kernel's result buffer at what its
    second call's write-backs leave, the reference's at its last stage; the two are one function of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v42), Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v86_eq, h0, h1, h2, h3, h4, h5, h6, h7]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
